-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x8192x128 : Shape := ⟨3, ![2, 8192, 128]⟩
abbrev S8192x8192 : Shape := ⟨2, ![8192, 8192]⟩
abbrev S8192x32 : Shape := ⟨2, ![8192, 32]⟩
abbrev S128x128 : Shape := ⟨2, ![128, 128]⟩
abbrev S128 : Shape := ⟨1, ![128]⟩
abbrev S256x128 : Shape := ⟨2, ![256, 128]⟩
abbrev S_ : Shape := ⟨0, ![]⟩

class Facts : Prop where
  bcast_S_S2x8192x128 : S_.BroadcastsInDim S2x8192x128 (![] : Fin 0 → Fin S2x8192x128.rank)
  reducesTo_S2x8192x128_S_d0_1_2 : S2x8192x128.ReducesTo [0, 1, 2] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_

variable [Facts]

def fn_part1 {F : FTy → Type} [FloatOps F] (main_arg5 : FVec F S256x128 .f32) (main_arg6 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S256x128 .f32 := Host.absf main_arg5
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S2x8192x128 .f32) (main_arg1 : FVec F S8192x8192 .f32) (main_arg2 : IVec S8192x32 32) (main_arg3 : FVec F S128x128 .f32) (main_arg4 : FVec F S128 .f32) (main_arg5 : FVec F S256x128 .f32) (main_arg6 : FVec F S128 .f32) : IVec S_ 1 :=
  let main_v0 : FVec F S2x8192x128 .f32 := Host.absf main_arg0
  let main_cst : FVec F S_ .f32 := constant S_ .f32 0x7F800000#32
  let main_v1 : FVec F S2x8192x128 .f32 := broadcastInDim S2x8192x128 ![] bcast_S_S2x8192x128 main_cst
  let main_v2 : IVec S2x8192x128 1 := cmpf .olt main_v0 main_v1
  let main_c : IVec S_ 1 := constantI S_ 1 1#1
  let main_v3 : IVec S_ 1 := (fun x v => Host.reduce IntOp.andi x v reducesTo_S2x8192x128_S_d0_1_2 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S2x8192x128 : Shape := ⟨3, ![2, 8192, 128]⟩
abbrev S8192x8192 : Shape := ⟨2, ![8192, 8192]⟩
abbrev S8192x32 : Shape := ⟨2, ![8192, 32]⟩
abbrev S128x128 : Shape := ⟨2, ![128, 128]⟩
abbrev S128 : Shape := ⟨1, ![128]⟩
abbrev S256x128 : Shape := ⟨2, ![256, 128]⟩
abbrev S_ : Shape := ⟨0, ![]⟩
abbrev S8192x32x1 : Shape := ⟨3, ![8192, 32, 1]⟩
abbrev S2x8192x32x128 : Shape := ⟨4, ![2, 8192, 32, 128]⟩
abbrev S8192 : Shape := ⟨1, ![8192]⟩
abbrev S8192x1 : Shape := ⟨2, ![8192, 1]⟩
abbrev S8192x32x2 : Shape := ⟨3, ![8192, 32, 2]⟩
abbrev S1x128 : Shape := ⟨2, ![1, 128]⟩
abbrev S2x512x32x128 : Shape := ⟨4, ![2, 512, 32, 128]⟩
abbrev S512x32 : Shape := ⟨2, ![512, 32]⟩
abbrev S2x512x128 : Shape := ⟨3, ![2, 512, 128]⟩
abbrev S32768x128 : Shape := ⟨2, ![32768, 128]⟩
abbrev S1x512x32x1 : Shape := ⟨4, ![1, 512, 32, 1]⟩
abbrev S1x512x1 : Shape := ⟨3, ![1, 512, 1]⟩
abbrev S2x512x256 : Shape := ⟨3, ![2, 512, 256]⟩
abbrev S1024x256 : Shape := ⟨2, ![1024, 256]⟩
abbrev S1024x128 : Shape := ⟨2, ![1024, 128]⟩
abbrev S2x512 : Shape := ⟨2, ![2, 512]⟩
abbrev S2x512x1 : Shape := ⟨3, ![2, 512, 1]⟩

abbrev nBuf : Space → Nat
  | .hbm => 41
  | .vmem => 12
  | .smem => 0
  | _ => 0

abbrev bufTy : (tb : Table) → Fin (tcTables nBuf tb) → BufTy
  | .hbm, ⟨0, _⟩ => ⟨S2x8192x128, .f32⟩
  | .hbm, ⟨1, _⟩ => ⟨S8192x8192, .f32⟩
  | .hbm, ⟨2, _⟩ => ⟨S8192x32, .i32⟩
  | .hbm, ⟨3, _⟩ => ⟨S128x128, .f32⟩
  | .hbm, ⟨4, _⟩ => ⟨S128, .f32⟩
  | .hbm, ⟨5, _⟩ => ⟨S256x128, .f32⟩
  | .hbm, ⟨6, _⟩ => ⟨S128, .f32⟩
  | .hbm, ⟨7, _⟩ => ⟨S2x8192x128, .bf16⟩
  | .hbm, ⟨8, _⟩ => ⟨S_, .i32⟩
  | .hbm, ⟨9, _⟩ => ⟨S8192x32, .i32⟩
  | .hbm, ⟨10, _⟩ => ⟨S8192x32, .i1⟩
  | .hbm, ⟨11, _⟩ => ⟨S_, .i32⟩
  | .hbm, ⟨12, _⟩ => ⟨S8192x32, .i32⟩
  | .hbm, ⟨13, _⟩ => ⟨S8192x32, .i32⟩
  | .hbm, ⟨14, _⟩ => ⟨S8192x32, .i32⟩
  | .hbm, ⟨15, _⟩ => ⟨S8192x32x1, .i32⟩
  | .hbm, ⟨16, _⟩ => ⟨S2x8192x32x128, .bf16⟩
  | .hbm, ⟨17, _⟩ => ⟨S8192, .i32⟩
  | .hbm, ⟨18, _⟩ => ⟨S8192x1, .i32⟩
  | .hbm, ⟨19, _⟩ => ⟨S_, .i32⟩
  | .hbm, ⟨20, _⟩ => ⟨S8192x1, .i32⟩
  | .hbm, ⟨21, _⟩ => ⟨S8192x1, .i1⟩
  | .hbm, ⟨22, _⟩ => ⟨S_, .i32⟩
  | .hbm, ⟨23, _⟩ => ⟨S8192x1, .i32⟩
  | .hbm, ⟨24, _⟩ => ⟨S8192x1, .i32⟩
  | .hbm, ⟨25, _⟩ => ⟨S8192x1, .i32⟩
  | .hbm, ⟨26, _⟩ => ⟨S_, .i32⟩
  | .hbm, ⟨27, _⟩ => ⟨S8192x32, .i32⟩
  | .hbm, ⟨28, _⟩ => ⟨S8192x32, .i1⟩
  | .hbm, ⟨29, _⟩ => ⟨S_, .i32⟩
  | .hbm, ⟨30, _⟩ => ⟨S8192x32, .i32⟩
  | .hbm, ⟨31, _⟩ => ⟨S8192x32, .i32⟩
  | .hbm, ⟨32, _⟩ => ⟨S8192x32, .i32⟩
  | .hbm, ⟨33, _⟩ => ⟨S8192x32, .i32⟩
  | .hbm, ⟨34, _⟩ => ⟨S8192x32x1, .i32⟩
  | .hbm, ⟨35, _⟩ => ⟨S8192x32x1, .i32⟩
  | .hbm, ⟨36, _⟩ => ⟨S8192x32x2, .i32⟩
  | .hbm, ⟨37, _⟩ => ⟨S8192x32, .f32⟩
  | .hbm, ⟨38, _⟩ => ⟨S1x128, .f32⟩
  | .hbm, ⟨39, _⟩ => ⟨S1x128, .f32⟩
  | .hbm, ⟨40, _⟩ => ⟨S2x8192x128, .f32⟩
  | .local _ .vmem, ⟨0, _⟩ => ⟨S2x512x32x128, .bf16⟩
  | .local _ .vmem, ⟨1, _⟩ => ⟨S2x512x32x128, .bf16⟩
  | .local _ .vmem, ⟨2, _⟩ => ⟨S512x32, .f32⟩
  | .local _ .vmem, ⟨3, _⟩ => ⟨S512x32, .f32⟩
  | .local _ .vmem, ⟨4, _⟩ => ⟨S2x512x128, .bf16⟩
  | .local _ .vmem, ⟨5, _⟩ => ⟨S2x512x128, .bf16⟩
  | .local _ .vmem, ⟨6, _⟩ => ⟨S128x128, .f32⟩
  | .local _ .vmem, ⟨7, _⟩ => ⟨S1x128, .f32⟩
  | .local _ .vmem, ⟨8, _⟩ => ⟨S256x128, .f32⟩
  | .local _ .vmem, ⟨9, _⟩ => ⟨S1x128, .f32⟩
  | .local _ .vmem, ⟨10, _⟩ => ⟨S2x512x128, .f32⟩
  | .local _ .vmem, ⟨11, _⟩ => ⟨S2x512x128, .f32⟩
  | _, _ => ⟨S2x8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_1 : Ref sig .tc := ⟨.hbm, 19, rfl⟩
abbrev main_v10 : Ref sig .tc := ⟨.hbm, 20, rfl⟩
abbrev main_v11 : Ref sig .tc := ⟨.hbm, 21, rfl⟩
abbrev main_c_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_3 : Ref sig .tc := ⟨.hbm, 26, rfl⟩
abbrev main_v15 : Ref sig .tc := ⟨.hbm, 27, rfl⟩
abbrev main_v16 : Ref sig .tc := ⟨.hbm, 28, rfl⟩
abbrev main_c_4 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S2x512x32x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bitsLt_bf16_f32 : FTy.bits .bf16 < FTy.bits .f32
  bcast_S_S8192x32 : S_.BroadcastsInDim S8192x32 (![] : Fin 0 → Fin S8192x32.rank)
  bcast_S8192x32_S8192x32x1_0_1 : S8192x32.BroadcastsInDim S8192x32x1 (![0, 1] : Fin 2 → Fin S8192x32x1.rank)
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x32_0_1 : S8192x1.BroadcastsInDim S8192x32 (![0, 1] : Fin 2 → Fin S8192x32.rank)
  concatenates_S8192x32x1_S8192x32x1_S8192x32x2_d2 : Shape.Concatenates [S8192x32x1, S8192x32x1] S8192x32x2 2
  shapeCasts_S128_S1x128 : S128.ShapeCasts S1x128
  inb_S2x512x32x128_S2x512x32x128_0_0_0_0 : ∀ a, (![0, 0, 0, 0] : Fin 4 → Nat) a + S2x512x32x128.size a ≤ S2x512x32x128.size a
  h_S2x512x32x128 : 0 < S2x512x32x128.numel
  shapeCasts_S2x512x32x128_S2x512x32x128 : S2x512x32x128.ShapeCasts S2x512x32x128
  shapeCasts_S2x512x32x128_S32768x128 : S2x512x32x128.ShapeCasts S32768x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S32768x128 : S1x128.Broadcasts S32768x128
  shapeCasts_S32768x128_S2x512x32x128 : S32768x128.ShapeCasts S2x512x32x128
  inb_S512x32_S512x32_0_0 : ∀ a, (![0, 0] : Fin 2 → Nat) a + S512x32.size a ≤ S512x32.size a
  h_S512x32 : 0 < S512x32.numel
  shapeCasts_S512x32_S512x32 : S512x32.ShapeCasts S512x32
  shapeCasts_S512x32_S1x512x32x1 : S512x32.ShapeCasts S1x512x32x1
  broadcasts_S1x512x32x1_S2x512x32x128 : S1x512x32x1.Broadcasts S2x512x32x128
  reduces_S2x512x32x128_S2x512x128 : S2x512x32x128.Reduces [2] S2x512x128
  reduces_S1x512x32x1_S1x512x1 : S1x512x32x1.Reduces [2] S1x512x1
  broadcasts_S1x512x1_S2x512x128 : S1x512x1.Broadcasts S2x512x128
  inb_S2x512x128_S2x512x128_0_0_0 : ∀ a, (![0, 0, 0] : Fin 3 → Nat) a + S2x512x128.size a ≤ S2x512x128.size a
  h_S2x512x128 : 0 < S2x512x128.numel
  shapeCasts_S2x512x128_S2x512x128 : S2x512x128.ShapeCasts S2x512x128
  concatenates_S2x512x128_S2x512x128_S2x512x256_d2 : Shape.Concatenates [S2x512x128, S2x512x128] S2x512x256 2
  shapeCasts_S2x512x256_S1024x256 : S2x512x256.ShapeCasts S1024x256
  inb_S256x128_S256x128_0_0 : ∀ a, (![0, 0] : Fin 2 → Nat) a + S256x128.size a ≤ S256x128.size a
  h_S256x128 : 0 < S256x128.numel
  broadcasts_S1x128_S1024x128 : S1x128.Broadcasts S1024x128
  shapeCasts_S1024x128_S2x512x128 : S1024x128.ShapeCasts S2x512x128
  reduces_S2x512x128_S2x512 : S2x512x128.Reduces [2] S2x512
  shapeCasts_S2x512_S2x512x1 : S2x512.ShapeCasts S2x512x1
  broadcasts_S2x512x1_S2x512x128 : S2x512x1.Broadcasts S2x512x128
  gather_S2x8192x128_S8192x32x1_S2x8192x32x128_03_1_n_n_1_2_21128_wf : GatherDims.WF S2x8192x128 S8192x32x1 S2x8192x32x128 [0, 3] [1] [] [1] [] 2 ![2, 1, 128]
  gather_S8192x8192_S8192x32x2_S8192x32_n_01_n_n_01_2_11_wf : GatherDims.WF S8192x8192 S8192x32x2 S8192x32 [] [0, 1] [] [0, 1] [] 2 ![1, 1]
  dot_S32768x128_S128x128_S32768x128_1_0_0_1_n_n_wf : DotDims.WF S32768x128 S128x128 S32768x128 [1] [0] [0] [1] [] []
  dot_S1024x256_S256x128_S1024x128_1_0_0_1_n_n_wf : DotDims.WF S1024x256 S256x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x512x32x128.size a ≤ S2x8192x32x128.size a
  hwx0_0 : ∀ i : grid0.Coords, EltTy.bits .bf16 = 32 ∨ (Rect.block (s := S2x8192x32x128) S2x512x32x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x32.size a ≤ S8192x32.size a
  hwx0_1 : ∀ i : grid0.Coords, EltTy.bits .f32 = 32 ∨ (Rect.block (s := S8192x32) S512x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x512x128.size a ≤ S2x8192x128.size a
  hwx0_2 : ∀ i : grid0.Coords, EltTy.bits .bf16 = 32 ∨ (Rect.block (s := S2x8192x128) S2x512x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S256x128.size a
  hwx0_5 : ∀ i : grid0.Coords, EltTy.bits .f32 = 32 ∨ (Rect.block (s := S256x128) S256x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2x512x128.size a ≤ S2x8192x128.size a
  hwx0_7 : ∀ i : grid0.Coords, EltTy.bits .f32 = 32 ∨ (Rect.block (s := S2x8192x128) S2x512x128.size (cc0_transform_7 i) (hinb0_7 i)).WholeWords (EltTy.packing .f32)

variable [Facts₀]

def gather_S2x8192x128_S8192x32x1_S2x8192x32x128_03_1_n_n_1_2_21128 : GatherDims S2x8192x128 S8192x32x1 S2x8192x32x128 where
  offsetDims := [0, 3]
  collapsedSliceDims := [1]
  operandBatchingDims := []
  startIndicesBatchingDims := []
  startIndexMap := [1]
  indexVectorDim := 2
  sliceSizes := ![2, 1, 128]
  wf := gather_S2x8192x128_S8192x32x1_S2x8192x32x128_03_1_n_n_1_2_21128_wf
def gather_S8192x8192_S8192x32x2_S8192x32_n_01_n_n_01_2_11 : GatherDims S8192x8192 S8192x32x2 S8192x32 where
  offsetDims := []
  collapsedSliceDims := [0, 1]
  operandBatchingDims := []
  startIndicesBatchingDims := []
  startIndexMap := [0, 1]
  indexVectorDim := 2
  sliceSizes := ![1, 1]
  wf := gather_S8192x8192_S8192x32x2_S8192x32_n_01_n_n_01_2_11_wf
def dot_S32768x128_S128x128_S32768x128_1_0_0_1_n_n : DotDims S32768x128 S128x128 S32768x128 where
  lhsContracting := [1]
  rhsContracting := [0]
  lhsNonContracting := [0]
  rhsNonContracting := [1]
  lhsBatch := []
  rhsBatch := []
  wf := dot_S32768x128_S128x128_S32768x128_1_0_0_1_n_n_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf

abbrev win0_0 : Pipeline.Window sig grid0 :=
  Pipeline.Window.ofSpec (Memref.whole main_v7) S2x512x32x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S512x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2x512x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v26) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v27) S2x512x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S2x8192x128 : Shape := ⟨3, ![2, 8192, 128]⟩
abbrev S8192x8192 : Shape := ⟨2, ![8192, 8192]⟩
abbrev S8192x32 : Shape := ⟨2, ![8192, 32]⟩
abbrev S128x128 : Shape := ⟨2, ![128, 128]⟩
abbrev S128 : Shape := ⟨1, ![128]⟩
abbrev S256x128 : Shape := ⟨2, ![256, 128]⟩
abbrev S_ : Shape := ⟨0, ![]⟩
abbrev S8192x32x1 : Shape := ⟨3, ![8192, 32, 1]⟩
abbrev S2x8192x32x128 : Shape := ⟨4, ![2, 8192, 32, 128]⟩
abbrev S1x1x1x128 : Shape := ⟨4, ![1, 1, 1, 128]⟩
abbrev S8192 : Shape := ⟨1, ![8192]⟩
abbrev S8192x1 : Shape := ⟨2, ![8192, 1]⟩
abbrev S8192x32x2 : Shape := ⟨3, ![8192, 32, 2]⟩
abbrev S1x8192x32x1 : Shape := ⟨4, ![1, 8192, 32, 1]⟩
abbrev S1x8192x1 : Shape := ⟨3, ![1, 8192, 1]⟩
abbrev S2x8192x256 : Shape := ⟨3, ![2, 8192, 256]⟩
abbrev S1x1x128 : Shape := ⟨3, ![1, 1, 128]⟩
abbrev S2x8192 : Shape := ⟨2, ![2, 8192]⟩
abbrev S2x8192x1 : Shape := ⟨3, ![2, 8192, 1]⟩

abbrev nBuf : Space → Nat
  | .hbm => 82
  | .vmem => 0
  | .smem => 0
  | _ => 0

abbrev bufTy : (tb : Table) → Fin (tcTables nBuf tb) → BufTy
  | .hbm, ⟨0, _⟩ => ⟨S2x8192x128, .f32⟩
  | .hbm, ⟨1, _⟩ => ⟨S8192x8192, .f32⟩
  | .hbm, ⟨2, _⟩ => ⟨S8192x32, .i32⟩
  | .hbm, ⟨3, _⟩ => ⟨S128x128, .f32⟩
  | .hbm, ⟨4, _⟩ => ⟨S128, .f32⟩
  | .hbm, ⟨5, _⟩ => ⟨S256x128, .f32⟩
  | .hbm, ⟨6, _⟩ => ⟨S128, .f32⟩
  | .hbm, ⟨7, _⟩ => ⟨S_, .i32⟩
  | .hbm, ⟨8, _⟩ => ⟨S8192x32, .i32⟩
  | .hbm, ⟨9, _⟩ => ⟨S8192x32, .i1⟩
  | .hbm, ⟨10, _⟩ => ⟨S_, .i32⟩
  | .hbm, ⟨11, _⟩ => ⟨S8192x32, .i32⟩
  | .hbm, ⟨12, _⟩ => ⟨S8192x32, .i32⟩
  | .hbm, ⟨13, _⟩ => ⟨S8192x32, .i32⟩
  | .hbm, ⟨14, _⟩ => ⟨S8192x32x1, .i32⟩
  | .hbm, ⟨15, _⟩ => ⟨S2x8192x32x128, .f32⟩
  | .hbm, ⟨16, _⟩ => ⟨S2x8192x32x128, .f32⟩
  | .hbm, ⟨17, _⟩ => ⟨S1x1x1x128, .f32⟩
  | .hbm, ⟨18, _⟩ => ⟨S2x8192x32x128, .f32⟩
  | .hbm, ⟨19, _⟩ => ⟨S2x8192x32x128, .f32⟩
  | .hbm, ⟨20, _⟩ => ⟨S_, .f32⟩
  | .hbm, ⟨21, _⟩ => ⟨S2x8192x32x128, .f32⟩
  | .hbm, ⟨22, _⟩ => ⟨S2x8192x32x128, .i1⟩
  | .hbm, ⟨23, _⟩ => ⟨S_, .f32⟩
  | .hbm, ⟨24, _⟩ => ⟨S2x8192x32x128, .f32⟩
  | .hbm, ⟨25, _⟩ => ⟨S2x8192x32x128, .f32⟩
  | .hbm, ⟨26, _⟩ => ⟨S2x8192x32x128, .f32⟩
  | .hbm, ⟨27, _⟩ => ⟨S8192, .i32⟩
  | .hbm, ⟨28, _⟩ => ⟨S8192x1, .i32⟩
  | .hbm, ⟨29, _⟩ => ⟨S_, .i32⟩
  | .hbm, ⟨30, _⟩ => ⟨S8192x1, .i32⟩
  | .hbm, ⟨31, _⟩ => ⟨S8192x1, .i1⟩
  | .hbm, ⟨32, _⟩ => ⟨S_, .i32⟩
  | .hbm, ⟨33, _⟩ => ⟨S8192x1, .i32⟩
  | .hbm, ⟨34, _⟩ => ⟨S8192x1, .i32⟩
  | .hbm, ⟨35, _⟩ => ⟨S8192x1, .i32⟩
  | .hbm, ⟨36, _⟩ => ⟨S_, .i32⟩
  | .hbm, ⟨37, _⟩ => ⟨S8192x32, .i32⟩
  | .hbm, ⟨38, _⟩ => ⟨S8192x32, .i1⟩
  | .hbm, ⟨39, _⟩ => ⟨S_, .i32⟩
  | .hbm, ⟨40, _⟩ => ⟨S8192x32, .i32⟩
  | .hbm, ⟨41, _⟩ => ⟨S8192x32, .i32⟩
  | .hbm, ⟨42, _⟩ => ⟨S8192x32, .i32⟩
  | .hbm, ⟨43, _⟩ => ⟨S8192x32, .i32⟩
  | .hbm, ⟨44, _⟩ => ⟨S8192x32x1, .i32⟩
  | .hbm, ⟨45, _⟩ => ⟨S8192x32x1, .i32⟩
  | .hbm, ⟨46, _⟩ => ⟨S8192x32x2, .i32⟩
  | .hbm, ⟨47, _⟩ => ⟨S8192x32, .f32⟩
  | .hbm, ⟨48, _⟩ => ⟨S1x8192x32x1, .f32⟩
  | .hbm, ⟨49, _⟩ => ⟨S2x8192x32x128, .f32⟩
  | .hbm, ⟨50, _⟩ => ⟨S2x8192x32x128, .f32⟩
  | .hbm, ⟨51, _⟩ => ⟨S_, .f32⟩
  | .hbm, ⟨52, _⟩ => ⟨S2x8192x128, .f32⟩
  | .hbm, ⟨53, _⟩ => ⟨S_, .f32⟩
  | .hbm, ⟨54, _⟩ => ⟨S1x8192x1, .f32⟩
  | .hbm, ⟨55, _⟩ => ⟨S_, .f32⟩
  | .hbm, ⟨56, _⟩ => ⟨S1x8192x1, .f32⟩
  | .hbm, ⟨57, _⟩ => ⟨S1x8192x1, .f32⟩
  | .hbm, ⟨58, _⟩ => ⟨S2x8192x128, .f32⟩
  | .hbm, ⟨59, _⟩ => ⟨S2x8192x128, .f32⟩
  | .hbm, ⟨60, _⟩ => ⟨S2x8192x256, .f32⟩
  | .hbm, ⟨61, _⟩ => ⟨S2x8192x128, .f32⟩
  | .hbm, ⟨62, _⟩ => ⟨S1x1x128, .f32⟩
  | .hbm, ⟨63, _⟩ => ⟨S2x8192x128, .f32⟩
  | .hbm, ⟨64, _⟩ => ⟨S2x8192x128, .f32⟩
  | .hbm, ⟨65, _⟩ => ⟨S_, .f32⟩
  | .hbm, ⟨66, _⟩ => ⟨S2x8192x128, .f32⟩
  | .hbm, ⟨67, _⟩ => ⟨S2x8192x128, .i1⟩
  | .hbm, ⟨68, _⟩ => ⟨S_, .f32⟩
  | .hbm, ⟨69, _⟩ => ⟨S2x8192x128, .f32⟩
  | .hbm, ⟨70, _⟩ => ⟨S2x8192x128, .f32⟩
  | .hbm, ⟨71, _⟩ => ⟨S2x8192x128, .f32⟩
  | .hbm, ⟨72, _⟩ => ⟨S2x8192x128, .f32⟩
  | .hbm, ⟨73, _⟩ => ⟨S_, .f32⟩
  | .hbm, ⟨74, _⟩ => ⟨S2x8192, .f32⟩
  | .hbm, ⟨75, _⟩ => ⟨S2x8192x1, .f32⟩
  | .hbm, ⟨76, _⟩ => ⟨S2x8192x1, .f32⟩
  | .hbm, ⟨77, _⟩ => ⟨S_, .f32⟩
  | .hbm, ⟨78, _⟩ => ⟨S2x8192x1, .f32⟩
  | .hbm, ⟨79, _⟩ => ⟨S2x8192x1, .f32⟩
  | .hbm, ⟨80, _⟩ => ⟨S2x8192x128, .f32⟩
  | .hbm, ⟨81, _⟩ => ⟨S2x8192x128, .f32⟩
  | _, _ => ⟨S2x8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_2 : Ref sig .tc := ⟨.hbm, 29, rfl⟩
abbrev main_v18 : Ref sig .tc := ⟨.hbm, 30, rfl⟩
abbrev main_v19 : Ref sig .tc := ⟨.hbm, 31, rfl⟩
abbrev main_c_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_4 : Ref sig .tc := ⟨.hbm, 36, rfl⟩
abbrev main_v23 : Ref sig .tc := ⟨.hbm, 37, rfl⟩
abbrev main_v24 : Ref sig .tc := ⟨.hbm, 38, rfl⟩
abbrev main_c_5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_6 : Ref sig .tc := ⟨.hbm, 51, rfl⟩
abbrev main_v36 : Ref sig .tc := ⟨.hbm, 52, rfl⟩
abbrev main_cst_7 : Ref sig .tc := ⟨.hbm, 53, rfl⟩
abbrev main_v37 : Ref sig .tc := ⟨.hbm, 54, rfl⟩
abbrev main_cst_8 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_9 : Ref sig .tc := ⟨.hbm, 65, rfl⟩
abbrev main_v47 : Ref sig .tc := ⟨.hbm, 66, rfl⟩
abbrev main_v48 : Ref sig .tc := ⟨.hbm, 67, rfl⟩
abbrev main_cst_10 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_call2_v0 : Ref sig .tc := ⟨.hbm, 72, rfl⟩
abbrev main_call2_cst : Ref sig .tc := ⟨.hbm, 73, rfl⟩
abbrev main_call2_v1 : Ref sig .tc := ⟨.hbm, 74, rfl⟩
abbrev main_call2_v2 : Ref sig .tc := ⟨.hbm, 75, rfl⟩
abbrev main_v52 : Ref sig .tc := ⟨.hbm, 76, rfl⟩
abbrev main_cst_11 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩

abbrev nD : Nat := 1
abbrev τ : Topo := Topo.v7x

variable {F : FTy → Type} [FloatOps F]

class Facts₀ : Prop where
  bcast_S_S8192x32 : S_.BroadcastsInDim S8192x32 (![] : Fin 0 → Fin S8192x32.rank)
  bcast_S8192x32_S8192x32x1_0_1 : S8192x32.BroadcastsInDim S8192x32x1 (![0, 1] : Fin 2 → Fin S8192x32x1.rank)
  bcast_S128_S1x1x1x128_3 : S128.BroadcastsInDim S1x1x1x128 (![3] : Fin 1 → Fin S1x1x1x128.rank)
  bcast_S1x1x1x128_S2x8192x32x128_0_1_2_3 : S1x1x1x128.BroadcastsInDim S2x8192x32x128 (![0, 1, 2, 3] : Fin 4 → Fin S2x8192x32x128.rank)
  bcast_S_S2x8192x32x128 : S_.BroadcastsInDim S2x8192x32x128 (![] : Fin 0 → Fin S2x8192x32x128.rank)
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x32_0_1 : S8192x1.BroadcastsInDim S8192x32 (![0, 1] : Fin 2 → Fin S8192x32.rank)
  concatenates_S8192x32x1_S8192x32x1_S8192x32x2_d2 : Shape.Concatenates [S8192x32x1, S8192x32x1] S8192x32x2 2
  bcast_S8192x32_S1x8192x32x1_1_2 : S8192x32.BroadcastsInDim S1x8192x32x1 (![1, 2] : Fin 2 → Fin S1x8192x32x1.rank)
  bcast_S1x8192x32x1_S2x8192x32x128_0_1_2_3 : S1x8192x32x1.BroadcastsInDim S2x8192x32x128 (![0, 1, 2, 3] : Fin 4 → Fin S2x8192x32x128.rank)
  reducesTo_S2x8192x32x128_S2x8192x128_d2 : S2x8192x32x128.ReducesTo [2] S2x8192x128
  h_S_ : 0 < S_.numel
  reducesTo_S1x8192x32x1_S1x8192x1_d2 : S1x8192x32x1.ReducesTo [2] S1x8192x1
  bcast_S_S1x8192x1 : S_.BroadcastsInDim S1x8192x1 (![] : Fin 0 → Fin S1x8192x1.rank)
  bcast_S1x8192x1_S2x8192x128_0_1_2 : S1x8192x1.BroadcastsInDim S2x8192x128 (![0, 1, 2] : Fin 3 → Fin S2x8192x128.rank)
  concatenates_S2x8192x128_S2x8192x128_S2x8192x256_d2 : Shape.Concatenates [S2x8192x128, S2x8192x128] S2x8192x256 2
  bcast_S128_S1x1x128_2 : S128.BroadcastsInDim S1x1x128 (![2] : Fin 1 → Fin S1x1x128.rank)
  bcast_S1x1x128_S2x8192x128_0_1_2 : S1x1x128.BroadcastsInDim S2x8192x128 (![0, 1, 2] : Fin 3 → Fin S2x8192x128.rank)
  bcast_S_S2x8192x128 : S_.BroadcastsInDim S2x8192x128 (![] : Fin 0 → Fin S2x8192x128.rank)
  reducesTo_S2x8192x128_S2x8192_d2 : S2x8192x128.ReducesTo [2] S2x8192
  bcast_S2x8192_S2x8192x1_0_1 : S2x8192.BroadcastsInDim S2x8192x1 (![0, 1] : Fin 2 → Fin S2x8192x1.rank)
  bcast_S_S2x8192x1 : S_.BroadcastsInDim S2x8192x1 (![] : Fin 0 → Fin S2x8192x1.rank)
  bcast_S2x8192x1_S2x8192x128_0_1_2 : S2x8192x1.BroadcastsInDim S2x8192x128 (![0, 1, 2] : Fin 3 → Fin S2x8192x128.rank)
  gather_S2x8192x128_S8192x32x1_S2x8192x32x128_03_1_n_n_1_2_21128_wf : GatherDims.WF S2x8192x128 S8192x32x1 S2x8192x32x128 [0, 3] [1] [] [1] [] 2 ![2, 1, 128]
  dot_S2x8192x32x128_S128x128_S2x8192x32x128_3_0_012_1_n_n_wf : DotDims.WF S2x8192x32x128 S128x128 S2x8192x32x128 [3] [0] [0, 1, 2] [1] [] []
  gather_S8192x8192_S8192x32x2_S8192x32_n_01_n_n_01_2_11_wf : GatherDims.WF S8192x8192 S8192x32x2 S8192x32 [] [0, 1] [] [0, 1] [] 2 ![1, 1]
  dot_S2x8192x256_S256x128_S2x8192x128_2_0_01_1_n_n_wf : DotDims.WF S2x8192x256 S256x128 S2x8192x128 [2] [0] [0, 1] [1] [] []

variable [Facts₀]

def gather_S2x8192x128_S8192x32x1_S2x8192x32x128_03_1_n_n_1_2_21128 : GatherDims S2x8192x128 S8192x32x1 S2x8192x32x128 where
  offsetDims := [0, 3]
  collapsedSliceDims := [1]
  operandBatchingDims := []
  startIndicesBatchingDims := []
  startIndexMap := [1]
  indexVectorDim := 2
  sliceSizes := ![2, 1, 128]
  wf := gather_S2x8192x128_S8192x32x1_S2x8192x32x128_03_1_n_n_1_2_21128_wf
def dot_S2x8192x32x128_S128x128_S2x8192x32x128_3_0_012_1_n_n : DotDims S2x8192x32x128 S128x128 S2x8192x32x128 where
  lhsContracting := [3]
  rhsContracting := [0]
  lhsNonContracting := [0, 1, 2]
  rhsNonContracting := [1]
  lhsBatch := []
  rhsBatch := []
  wf := dot_S2x8192x32x128_S128x128_S2x8192x32x128_3_0_012_1_n_n_wf
def gather_S8192x8192_S8192x32x2_S8192x32_n_01_n_n_01_2_11 : GatherDims S8192x8192 S8192x32x2 S8192x32 where
  offsetDims := []
  collapsedSliceDims := [0, 1]
  operandBatchingDims := []
  startIndicesBatchingDims := []
  startIndexMap := [0, 1]
  indexVectorDim := 2
  sliceSizes := ![1, 1]
  wf := gather_S8192x8192_S8192x32x2_S8192x32_n_01_n_n_01_2_11_wf
def dot_S2x8192x256_S256x128_S2x8192x128_2_0_01_1_n_n : DotDims S2x8192x256 S256x128 S2x8192x128 where
  lhsContracting := [2]
  rhsContracting := [0]
  lhsNonContracting := [0, 1]
  rhsNonContracting := [1]
  lhsBatch := []
  rhsBatch := []
  wf := dot_S2x8192x256_S256x128_S2x8192x128_2_0_01_1_n_n_wf

class Facts : Prop extends Facts₀ where

variable [Facts]
-- ==== Proof.Row.lean ====
/-
  One node's output row, as a function of the numbers it depends on.

  For a fixed batch entry and node: `ne k c` is coordinate `c` of the node's `k`-th gathered neighbour embedding
  (32 neighbours, 128 coordinates), `nw k` the weight of the edge to that neighbour, `e` the node's own embedding,
  `qw`, `qb` the first dense layer (128 → 128), `ww`, `wb` the second (256 → 128). The row is

    hidden k h = leaky (∑ c, ne k c · qw c h + qb h)
    mean h     = (∑ k, hidden k h · nw k) / (∑ k, nw k + ε)
    dense h    = leaky (∑ f, (e ++ mean) f · ww f h + wb h)
    out h      = dense h / (√(∑ h', dense h' · dense h') + ε)

  over the extended reals, with `leaky x = x` for `0 ≤ x` and `0.3f · x` otherwise, the two float literals (the slope
  and ε) kept as the words both programs print. Nothing here mentions a program: both the kernel's block
  and the reference's whole arrays are read row by row into this one function.
-/
import Idealize.ShloMosaic.PureOps.Ideal
import Idealize.ShloMosaic.Lib.ValueIdx

noncomputable section

namespace Cert.GnnRow

open Idealize.ShloMosaic

/-- The leaky rectifier both programs spell as `select (x ≥ 0) x (slope · x)`, slope the f32 word of 0.3. -/
def leaky (x : EReal) : EReal :=
  Scalar.select (Ideal.cmp .oge x (Ideal.ofBits .f32 0x00000000#32)) x (Ideal.ofBits .f32 0x3E99999A#32 * x)

/-- The guard both programs add to a denominator: the f32 word of 1e-6. -/
abbrev eps : EReal := Ideal.ofBits .f32 0x358637BD#32

variable (ne : Fin 32 → Fin 128 → EReal) (nw : Fin 32 → EReal) (e : Fin 128 → EReal)
  (qw : Fin 128 → Fin 128 → EReal) (qb : Fin 128 → EReal) (ww : Fin 256 → Fin 128 → EReal) (wb : Fin 128 → EReal)

/-- The first dense layer applied to neighbour `k`, output coordinate `h`. -/
def hidden (k : Fin 32) (h : Fin 128) : EReal := leaky ((∑ c : Fin 128, ne k c * qw c h) + qb h)

/-- The edge-weighted mean of the neighbours' hidden rows. -/
def mean (h : Fin 128) : EReal :=
  Ideal.div (∑ k : Fin 32, hidden ne qw qb k h * nw k) ((∑ k : Fin 32, nw k) + eps)

/-- A row of 128 followed by a row of 128, as one row of 256. -/
def joined (a b : Fin 128 → EReal) (f : Fin 256) : EReal :=
  if hf : f.val < 128 then a ⟨f.val, hf⟩ else b ⟨f.val - 128, by have := f.isLt; omega⟩

/-- The second dense layer applied to the node's embedding joined with the mean. -/
def dense (h : Fin 128) : EReal :=
  leaky ((∑ f : Fin 256, joined e (mean ne nw qw qb) f * ww f h) + wb h)

/-- The row, normalised by its Euclidean length plus ε. -/
def out (h : Fin 128) : EReal :=
  Ideal.div (dense ne nw e qw qb ww wb h)
    (Ideal.sqrt (∑ h' : Fin 128, dense ne nw e qw qb ww wb h' * dense ne nw e qw qb ww wb h') + eps)

end Cert.GnnRow

end
-- ==== Proof.KernelRow.lean ====
/-
  One grid point's block, row by row.

  At a grid point the body holds a block of 512 nodes for both batch entries: `P0` the 32 gathered neighbour rows of
  every node (2 × 512 × 32 × 128), `P3` the 512 × 32 edge weights, `P4` the nodes' own rows (2 × 512 × 128), and the
  two dense layers whole (`P1`, `P2`; `P5`, `P6`). The body flattens (batch, node, neighbour) to 32768 rows for the first
  matrix product and (batch, node) to 1024 rows for the second, and sums over the neighbour axis and over the feature
  axis by lane reductions. Read at batch `b`, node `r` and feature `h`, each stage depends only on row (b, r) of the block:
  the flattened row of (b, r, k) is (b·512 + r)·32 + k and that of (b, r) is b·512 + r, a reshape keeps the row-major
  position, a broadcast reads its operand at the kept coordinates, a product into a zero accumulator is the sum over the
  contracted axis and a lane reduction the sum over the dropped axis. Put together, the value stored at (b, r, h) is
  `GnnRow.out` of row (b, r)'s numbers. Rounding to the 16-bit format is the identity on extended reals.
-/
import proofs.«115110_j4509715661235_1_alg».proof.Proof.Gen.KernelIdeal.Skeleton
import proofs.«115110_j4509715661235_1_alg».proof.Proof.Row
import Idealize.ShloMosaic.Lib.Pipeline.Value
import Idealize.ShloMosaic.Lib.ValueIdx
import Idealize.ShloMosaic.PureOps.Ideal.Laws

noncomputable section

namespace Cert.KernelRow

open Cert.KernelIdeal Cert.KernelIdeal.Gen Idealize.ShloMosaic Idealize.ShloMosaic.ValueIdx

/-- The flattened row of (batch b, node r) among the block's 1024 rows. -/
abbrev row (b : Fin 2) (r : Fin 512) : Fin 1024 := ⟨b.val * 512 + r.val, by have := b.isLt; have := r.isLt; omega⟩

/-- The flattened row of (batch b, node r, neighbour k) among the block's 32768 rows. -/
abbrev nbr (b : Fin 2) (r : Fin 512) (k : Fin 32) : Fin 32768 :=
  ⟨(b.val * 512 + r.val) * 32 + k.val, by have := b.isLt; have := r.isLt; have := k.isLt; omega⟩

/-! ## The body's stages, as the body spells them -/

section stages

variable {F : FTy → Type} [FloatOps F]

/-- The leaky rectifier on a whole vector: `select (x ≥ 0) x (slope · x)`. -/
def act {s : Shape} (x : FVec F s .f32) : FVec F s .f32 :=
  select (cmpf .oge x (broadcast s (Scalar.ofBits .f32 0x00000000#32))) x (mulf (broadcast s (Scalar.ofBits .f32 0x3E99999A#32)) x)

/-- The 32768 neighbour rows times the first weight matrix, plus its bias row. -/
def lin (P0 : Vec F S2x512x32x128 .bf16) (P1 : Vec F S128x128 .f32) (P2 : Vec F S1x128 .f32) : FVec F S32768x128 .f32 :=
  addf (matmul dot_S32768x128_S128x128_S32768x128_1_0_0_1_n_n none
      (shapeCast S32768x128 (shapeCast S2x512x32x128 P0 shapeCasts_S2x512x32x128_S2x512x32x128) shapeCasts_S2x512x32x128_S32768x128)
      (truncf .bf16 P1 bitsLt_bf16_f32) (constant S32768x128 .f32 0x00000000#32))
    (broadcastTo S32768x128 (shapeCast S1x128 P2 shapeCasts_S1x128_S1x128) broadcasts_S1x128_S32768x128)

/-- The neighbours' hidden rows, back in (batch, node, neighbour, feature) layout. -/
def hid (P0 : Vec F S2x512x32x128 .bf16) (P1 : Vec F S128x128 .f32) (P2 : Vec F S1x128 .f32) : FVec F S2x512x32x128 .f32 :=
  shapeCast S2x512x32x128 (act (lin P0 P1 P2)) shapeCasts_S32768x128_S2x512x32x128

/-- The edge weights with a unit batch axis and a unit feature axis. -/
def wts (P3 : Vec F S512x32 .f32) : FVec F S1x512x32x1 .f32 :=
  shapeCast S1x512x32x1 (shapeCast S512x32 P3 shapeCasts_S512x32_S512x32) shapeCasts_S512x32_S1x512x32x1

/-- The weighted sum over the neighbour axis divided by the sum of the weights plus ε. -/
def wmean (H : FVec F S2x512x32x128 .f32) (W : FVec F S1x512x32x1 .f32) : FVec F S2x512x128 .f32 :=
  divf (multiReduction .add [2] S2x512x128 (mulf H (broadcastTo S2x512x32x128 W broadcasts_S1x512x32x1_S2x512x32x128)) 0x00000000#32 reduces_S2x512x32x128_S2x512x128 (.inl rfl) rfl)
    (broadcastTo S2x512x128 (addf (multiReduction .add [2] S1x512x1 W 0x00000000#32 reduces_S1x512x32x1_S1x512x1 (.inl rfl) rfl) (broadcast S1x512x1 (Scalar.ofBits .f32 0x358637BD#32))) broadcasts_S1x512x1_S2x512x128)

/-- The nodes' own rows joined with the mean rows along the feature axis, flattened to 1024 rows of 256. -/
def cat (P4 : Vec F S2x512x128 .bf16) (M : FVec F S2x512x128 .f32) : FVec F S1024x256 .bf16 :=
  shapeCast S1024x256 (truncf .bf16 (concatenate S2x512x256 2 [⟨S2x512x128, extf .f32 (shapeCast S2x512x128 P4 shapeCasts_S2x512x128_S2x512x128) bitsLt_bf16_f32⟩, ⟨S2x512x128, M⟩] concatenates_S2x512x128_S2x512x128_S2x512x256_d2) bitsLt_bf16_f32) shapeCasts_S2x512x256_S1024x256

/-- The 1024 joined rows times the second weight matrix. -/
def lin2 (C : FVec F S1024x256 .bf16) (P5 : Vec F S256x128 .f32) : FVec F S1024x128 .f32 :=
  matmul dot_S1024x256_S256x128_S1024x128_1_0_0_1_n_n none C (truncf .bf16 P5 bitsLt_bf16_f32) (constant S1024x128 .f32 0x00000000#32)

/-- The body's first payload is these stages composed. -/
theorem pay2_eq (P0 : Vec F S2x512x32x128 .bf16) (P1 : Vec F S128x128 .f32) (P2 : Vec F S1x128 .f32) (P3 : Vec F S512x32 .f32)
    (P4 : Vec F S2x512x128 .bf16) (P5 : Vec F S256x128 .f32) :
    k0_pay2 P0 P1 P2 P3 P4 P5 = lin2 (cat P4 (wmean (hid P0 P1 P2) (wts P3))) P5 := rfl

/-- The second dense layer's rows (bias added, rectified), back in (batch, node, feature) layout. -/
def dense2 (Q : FVec F S1024x128 .f32) (P6 : Vec F S1x128 .f32) : FVec F S2x512x128 .f32 :=
  shapeCast S2x512x128 (act (addf Q (broadcastTo S1024x128 (shapeCast S1x128 P6 shapeCasts_S1x128_S1x128) broadcasts_S1x128_S1024x128))) shapeCasts_S1024x128_S2x512x128

/-- The sum of squares over the feature axis. -/
def sumsq (D : FVec F S2x512x128 .f32) : FVec F S2x512 .f32 :=
  multiReduction .add [2] S2x512 (mulf D D) 0x00000000#32 reduces_S2x512x128_S2x512 (.inl rfl) rfl

end stages

/-! ## The two matrix products read at an index -/

theorem dot1_lhs0 (i : S32768x128.Idx) (q : dot_S32768x128_S128x128_S32768x128_1_0_0_1_n_n.contr.Idx) : (dot_S32768x128_S128x128_S32768x128_1_0_0_1_n_n.lhsIdx i q 0).val = (i 0).val := by
  unfold DotDims.lhsIdx
  rw [dif_neg (show ¬(0 : Fin S32768x128.rank) ∈ dot_S32768x128_S128x128_S32768x128_1_0_0_1_n_n.lhsBatch by decide), dif_pos (show (0 : Fin S32768x128.rank) ∈ dot_S32768x128_S128x128_S32768x128_1_0_0_1_n_n.lhsNonContracting by decide)]
  rfl
theorem dot1_lhs1 (i : S32768x128.Idx) (q : dot_S32768x128_S128x128_S32768x128_1_0_0_1_n_n.contr.Idx) : (dot_S32768x128_S128x128_S32768x128_1_0_0_1_n_n.lhsIdx i q 1).val = (q ⟨0, by decide⟩).val :=
  dot_S32768x128_S128x128_S32768x128_1_0_0_1_n_n.lhsIdx_val_of_single rfl i q
theorem dot1_rhs0 (i : S32768x128.Idx) (q : dot_S32768x128_S128x128_S32768x128_1_0_0_1_n_n.contr.Idx) : (dot_S32768x128_S128x128_S32768x128_1_0_0_1_n_n.rhsIdx i q 0).val = (q ⟨0, by decide⟩).val :=
  dot_S32768x128_S128x128_S32768x128_1_0_0_1_n_n.rhsIdx_val_of_single rfl i q
theorem dot1_rhs1 (i : S32768x128.Idx) (q : dot_S32768x128_S128x128_S32768x128_1_0_0_1_n_n.contr.Idx) : (dot_S32768x128_S128x128_S32768x128_1_0_0_1_n_n.rhsIdx i q 1).val = (i 1).val := by
  unfold DotDims.rhsIdx
  rw [dif_neg (show ¬(1 : Fin S128x128.rank) ∈ dot_S32768x128_S128x128_S32768x128_1_0_0_1_n_n.rhsBatch by decide), dif_pos (show (1 : Fin S128x128.rank) ∈ dot_S32768x128_S128x128_S32768x128_1_0_0_1_n_n.rhsNonContracting by decide)]
  rfl

/-- The product into a zero accumulator, read at row `p`, column `h`: the sum over the contracted axis of the left
    operand's row `p` against the right operand's column `h`. -/
theorem dot1_apply (A : FVec Ideal S32768x128 .bf16) (B : FVec Ideal S128x128 .bf16) (p : Fin 32768) (h : Fin 128) :
    matmul dot_S32768x128_S128x128_S32768x128_1_0_0_1_n_n none A B (constant S32768x128 .f32 0x00000000#32) (ix2 p h)
      = ∑ c : Fin 128, A (ix2 p c) * B (ix2 c h) := by
  refine (Ideal.matmul_constant_zero_apply dot_S32768x128_S128x128_S32768x128_1_0_0_1_n_n none A B (ix2 p h)).trans ?_
  rw [← Equiv.sum_comp (contrEquiv1 dot_S32768x128_S128x128_S32768x128_1_0_0_1_n_n 128 rfl rfl).symm]
  refine Finset.sum_congr rfl fun c _ => ?_
  have hk := contrEquiv1_symm_val dot_S32768x128_S128x128_S32768x128_1_0_0_1_n_n 128 rfl rfl c
  have el : dot_S32768x128_S128x128_S32768x128_1_0_0_1_n_n.lhsIdx (ix2 p h) ((contrEquiv1 dot_S32768x128_S128x128_S32768x128_1_0_0_1_n_n 128 rfl rfl).symm c) = ix2 p c := funext fun a => Fin.ext (by
    match a with
    | ⟨0, _⟩ => exact dot1_lhs0 _ _
    | ⟨1, _⟩ => exact (dot1_lhs1 _ _).trans hk)
  have er : dot_S32768x128_S128x128_S32768x128_1_0_0_1_n_n.rhsIdx (ix2 p h) ((contrEquiv1 dot_S32768x128_S128x128_S32768x128_1_0_0_1_n_n 128 rfl rfl).symm c) = ix2 c h := funext fun a => Fin.ext (by
    match a with
    | ⟨0, _⟩ => exact (dot1_rhs0 _ _).trans hk
    | ⟨1, _⟩ => exact dot1_rhs1 _ _)
  rw [el, er]

theorem dot2_lhs0 (i : S1024x128.Idx) (q : dot_S1024x256_S256x128_S1024x128_1_0_0_1_n_n.contr.Idx) : (dot_S1024x256_S256x128_S1024x128_1_0_0_1_n_n.lhsIdx i q 0).val = (i 0).val := by
  unfold DotDims.lhsIdx
  rw [dif_neg (show ¬(0 : Fin S1024x256.rank) ∈ dot_S1024x256_S256x128_S1024x128_1_0_0_1_n_n.lhsBatch by decide), dif_pos (show (0 : Fin S1024x256.rank) ∈ dot_S1024x256_S256x128_S1024x128_1_0_0_1_n_n.lhsNonContracting by decide)]
  rfl
theorem dot2_lhs1 (i : S1024x128.Idx) (q : dot_S1024x256_S256x128_S1024x128_1_0_0_1_n_n.contr.Idx) : (dot_S1024x256_S256x128_S1024x128_1_0_0_1_n_n.lhsIdx i q 1).val = (q ⟨0, by decide⟩).val :=
  dot_S1024x256_S256x128_S1024x128_1_0_0_1_n_n.lhsIdx_val_of_single rfl i q
theorem dot2_rhs0 (i : S1024x128.Idx) (q : dot_S1024x256_S256x128_S1024x128_1_0_0_1_n_n.contr.Idx) : (dot_S1024x256_S256x128_S1024x128_1_0_0_1_n_n.rhsIdx i q 0).val = (q ⟨0, by decide⟩).val :=
  dot_S1024x256_S256x128_S1024x128_1_0_0_1_n_n.rhsIdx_val_of_single rfl i q
theorem dot2_rhs1 (i : S1024x128.Idx) (q : dot_S1024x256_S256x128_S1024x128_1_0_0_1_n_n.contr.Idx) : (dot_S1024x256_S256x128_S1024x128_1_0_0_1_n_n.rhsIdx i q 1).val = (i 1).val := by
  unfold DotDims.rhsIdx
  rw [dif_neg (show ¬(1 : Fin S256x128.rank) ∈ dot_S1024x256_S256x128_S1024x128_1_0_0_1_n_n.rhsBatch by decide), dif_pos (show (1 : Fin S256x128.rank) ∈ dot_S1024x256_S256x128_S1024x128_1_0_0_1_n_n.rhsNonContracting by decide)]
  rfl

/-- The product into a zero accumulator, read at row `p`, column `h`: the sum over the contracted axis of the left
    operand's row `p` against the right operand's column `h`. -/
theorem dot2_apply (A : FVec Ideal S1024x256 .bf16) (B : FVec Ideal S256x128 .bf16) (p : Fin 1024) (h : Fin 128) :
    matmul dot_S1024x256_S256x128_S1024x128_1_0_0_1_n_n none A B (constant S1024x128 .f32 0x00000000#32) (ix2 p h)
      = ∑ c : Fin 256, A (ix2 p c) * B (ix2 c h) := by
  refine (Ideal.matmul_constant_zero_apply dot_S1024x256_S256x128_S1024x128_1_0_0_1_n_n none A B (ix2 p h)).trans ?_
  rw [← Equiv.sum_comp (contrEquiv1 dot_S1024x256_S256x128_S1024x128_1_0_0_1_n_n 256 rfl rfl).symm]
  refine Finset.sum_congr rfl fun c _ => ?_
  have hk := contrEquiv1_symm_val dot_S1024x256_S256x128_S1024x128_1_0_0_1_n_n 256 rfl rfl c
  have el : dot_S1024x256_S256x128_S1024x128_1_0_0_1_n_n.lhsIdx (ix2 p h) ((contrEquiv1 dot_S1024x256_S256x128_S1024x128_1_0_0_1_n_n 256 rfl rfl).symm c) = ix2 p c := funext fun a => Fin.ext (by
    match a with
    | ⟨0, _⟩ => exact dot2_lhs0 _ _
    | ⟨1, _⟩ => exact (dot2_lhs1 _ _).trans hk)
  have er : dot_S1024x256_S256x128_S1024x128_1_0_0_1_n_n.rhsIdx (ix2 p h) ((contrEquiv1 dot_S1024x256_S256x128_S1024x128_1_0_0_1_n_n 256 rfl rfl).symm c) = ix2 c h := funext fun a => Fin.ext (by
    match a with
    | ⟨0, _⟩ => exact (dot2_rhs0 _ _).trans hk
    | ⟨1, _⟩ => exact dot2_rhs1 _ _)
  rw [el, er]

/-! ## Each stage read at a row of the block -/

variable (P0 : Vec Ideal S2x512x32x128 .bf16) (P1 : Vec Ideal S128x128 .f32) (P2 : Vec Ideal S1x128 .f32)
  (P3 : Vec Ideal S512x32 .f32) (P4 : Vec Ideal S2x512x128 .bf16) (P5 : Vec Ideal S256x128 .f32) (P6 : Vec Ideal S1x128 .f32)

theorem act_apply {s : Shape} (x : FVec Ideal s .f32) (i : s.Idx) : act x i = GnnRow.leaky (x i) := rfl

/-- Neighbour row (b, r, k) times the first weight matrix, plus the bias, at feature `h`. -/
theorem lin_apply (b : Fin 2) (r : Fin 512) (k : Fin 32) (h : Fin 128) :
    lin (F := Ideal) P0 P1 P2 (ix2 (nbr b r k) h) = (∑ c : Fin 128, P0 (ix4 b r k c) * P1 (ix2 c h)) + P2 (ix2 (0 : Fin 1) h) := by
  unfold lin
  rw [addf_apply, dot1_apply]
  refine congrArg₂ (· + ·) (Finset.sum_congr rfl fun c _ => congrArg₂ (· * ·) ?_ rfl) ?_
  · refine (shapeCast_apply _ _ (ix2 (nbr b r k) c) (ix4 b r k c) ?_).trans (congrFun (shapeCast_self P0 _) _)
    rw [Shape.rowMajor_val_four, Shape.rowMajor_val_two]
    show ((b.val * 512 + r.val) * 32 + k.val) * 128 + c.val = ((b.val * 512 + r.val) * 32 + k.val) * 128 + c.val
    rfl
  · refine (broadcastTo_apply _ _ (ix2 (nbr b r k) h) (ix2 (0 : Fin 1) h) ?_).trans (congrFun (shapeCast_self P2 _) _)
    intro a
    match a with
    | ⟨0, _⟩ => show 0 = if (1 : Nat) = 1 then 0 else _; rw [if_pos rfl]
    | ⟨1, _⟩ => show h.val = if (128 : Nat) = 1 then 0 else h.val; rw [if_neg (by decide)]

/-- The hidden row of neighbour `k` of node (b, r). -/
theorem hid_apply (b : Fin 2) (r : Fin 512) (k : Fin 32) (h : Fin 128) :
    hid (F := Ideal) P0 P1 P2 (ix4 b r k h)
      = GnnRow.hidden (fun k c => P0 (ix4 b r k c)) (fun c h => P1 (ix2 c h)) (fun h => P2 (ix2 (0 : Fin 1) h)) k h := by
  unfold hid
  refine (shapeCast_apply _ _ (ix4 b r k h) (ix2 (nbr b r k) h) ?_).trans ?_
  · rw [Shape.rowMajor_val_two, Shape.rowMajor_val_four]
    show ((b.val * 512 + r.val) * 32 + k.val) * 128 + h.val = ((b.val * 512 + r.val) * 32 + k.val) * 128 + h.val
    rfl
  · exact (act_apply _ _).trans (congrArg GnnRow.leaky (lin_apply P0 P1 P2 b r k h))

/-- The weight of the edge from node `r` to its neighbour `k`. -/
theorem wts_apply (r : Fin 512) (k : Fin 32) : wts (F := Ideal) P3 (ix4 (0 : Fin 1) r k (0 : Fin 1)) = P3 (ix2 r k) := by
  unfold wts
  refine (shapeCast_apply _ _ (ix4 (0 : Fin 1) r k (0 : Fin 1)) (ix2 r k) ?_).trans (congrFun (shapeCast_self P3 _) _)
  rw [Shape.rowMajor_val_two, Shape.rowMajor_val_four]
  show r.val * 32 + k.val = ((0 * 512 + r.val) * 32 + k.val) * 1 + 0
  omega

/-- The weighted mean at (b, r, h): the lane sums are sums over the 32 neighbours. -/
theorem wmean_apply (H : FVec Ideal S2x512x32x128 .f32) (W : FVec Ideal S1x512x32x1 .f32) (b : Fin 2) (r : Fin 512) (h : Fin 128) :
    wmean (F := Ideal) H W (ix3 b r h)
      = Ideal.div (∑ k : Fin 32, H (ix4 b r k h) * W (ix4 (0 : Fin 1) r k (0 : Fin 1)))
          ((∑ k : Fin 32, W (ix4 (0 : Fin 1) r k (0 : Fin 1))) + GnnRow.eps) := by
  unfold wmean
  rw [divf_apply]
  refine congrArg₂ Ideal.div ?_ ?_
  · refine (Ideal.multiReduction_add_single _ 0x00000000#32 reduces_S2x512x32x128_S2x512x128 (.inl rfl) rfl (ix3 b r h)).trans ?_
    refine Finset.sum_congr rfl fun (k : Fin 32) _ => ?_
    have e : reduces_S2x512x32x128_S2x512x128.lift (ix3 b r h) k = ix4 b r k h := funext fun a => Fin.ext (by
      match a with
      | ⟨0, _⟩ => rfl
      | ⟨1, _⟩ => rfl
      | ⟨2, _⟩ => rfl
      | ⟨3, _⟩ => rfl)
    rw [e, mulf_apply]
    refine congrArg (H (ix4 b r k h) * ·) ?_
    exact broadcastTo_apply W _ (ix4 b r k h) (ix4 (0 : Fin 1) r k (0 : Fin 1)) (fun a => match a with
      | ⟨0, _⟩ => by show 0 = if (1 : Nat) = 1 then 0 else _; rw [if_pos rfl]
      | ⟨1, _⟩ => by show r.val = if (512 : Nat) = 1 then 0 else r.val; rw [if_neg (by decide)]
      | ⟨2, _⟩ => by show k.val = if (32 : Nat) = 1 then 0 else k.val; rw [if_neg (by decide)]
      | ⟨3, _⟩ => by show 0 = if (1 : Nat) = 1 then 0 else _; rw [if_pos rfl])
  · refine (broadcastTo_apply _ _ (ix3 b r h) (ix3 (0 : Fin 1) r (0 : Fin 1)) (fun a => match a with
      | ⟨0, _⟩ => by show 0 = if (1 : Nat) = 1 then 0 else _; rw [if_pos rfl]
      | ⟨1, _⟩ => by show r.val = if (512 : Nat) = 1 then 0 else r.val; rw [if_neg (by decide)]
      | ⟨2, _⟩ => by show 0 = if (1 : Nat) = 1 then 0 else _; rw [if_pos rfl])).trans ?_
    rw [addf_apply]
    refine congrArg₂ (· + ·) ?_ rfl
    refine (Ideal.multiReduction_add_single W 0x00000000#32 reduces_S1x512x32x1_S1x512x1 (.inl rfl) rfl (ix3 (0 : Fin 1) r (0 : Fin 1))).trans ?_
    refine Finset.sum_congr rfl fun (k : Fin 32) _ => congrArg W (funext fun a => Fin.ext (by
      match a with
      | ⟨0, _⟩ => rfl
      | ⟨1, _⟩ => rfl
      | ⟨2, _⟩ => rfl
      | ⟨3, _⟩ => rfl))

/-- Row (b, r) of the joined block: the node's own row on the first 128 features, the mean row on the last 128. -/
theorem cat_apply (M : FVec Ideal S2x512x128 .f32) (b : Fin 2) (r : Fin 512) (f : Fin 256) :
    cat (F := Ideal) P4 M (ix2 (row b r) f) = GnnRow.joined (fun c => P4 (ix3 b r c)) (fun h => M (ix3 b r h)) f := by
  unfold cat
  refine (shapeCast_apply _ _ (ix2 (row b r) f) (ix3 b r f) ?_).trans ?_
  · rw [Shape.rowMajor_val_three, Shape.rowMajor_val_two]
    show (b.val * 512 + r.val) * 256 + f.val = (b.val * 512 + r.val) * 256 + f.val
    rfl
  refine (truncf_apply (s := S2x512x256) (φ := .f32) (ψ := .bf16) _ bitsLt_bf16_f32 (ix3 b r f)).trans ?_
  unfold GnnRow.joined
  by_cases hf : f.val < 128
  · rw [dif_pos hf]
    refine (concatenate_pair_apply_left (t := S2x512x256) (s₁ := S2x512x128) (s₂ := S2x512x128) 2 _ _ _ (ix3 b r f) rfl (ix3 b r (⟨f.val, hf⟩ : Fin 128)) ?_).trans ?_
    · intro a
      match a with
      | ⟨0, _⟩ => rfl
      | ⟨1, _⟩ => rfl
      | ⟨2, _⟩ => rfl
    · exact (extf_apply (s := S2x512x128) (φ := .bf16) (ψ := .f32) _ bitsLt_bf16_f32 _).trans (congrFun (shapeCast_self P4 _) _)
  · rw [dif_neg hf]
    refine concatenate_pair_apply_right (t := S2x512x256) (s₁ := S2x512x128) (s₂ := S2x512x128) 2 _ _ _ (ix3 b r f) rfl rfl (ix3 b r (⟨f.val - 128, by have := f.isLt; omega⟩ : Fin 128)) ?_ ?_
    · intro a ha
      match a, ha with
      | ⟨0, _⟩, _ => rfl
      | ⟨1, _⟩, _ => rfl
      | ⟨2, _⟩, ha => exact absurd (Fin.ext rfl) ha
    · show f.val - 128 + 128 = f.val
      omega

/-- The first payload at flattened row (b, r), feature `h`: the joined row against column `h` of the second matrix. -/
theorem pay2_apply (b : Fin 2) (r : Fin 512) (h : Fin 128) :
    k0_pay2 P0 P1 P2 P3 P4 P5 (ix2 (row b r) h)
      = ∑ f : Fin 256, GnnRow.joined (fun c => P4 (ix3 b r c))
          (GnnRow.mean (fun k c => P0 (ix4 b r k c)) (fun k => P3 (ix2 r k)) (fun c h => P1 (ix2 c h)) (fun h => P2 (ix2 (0 : Fin 1) h))) f
          * P5 (ix2 f h) := by
  rw [pay2_eq]
  unfold lin2
  rw [dot2_apply]
  refine Finset.sum_congr rfl fun f _ => congrArg₂ (· * ·) ?_ rfl
  refine (cat_apply P4 _ b r f).trans ?_
  refine congrArg (fun m => GnnRow.joined (fun c => P4 (ix3 b r c)) m f) (funext fun h' => ?_)
  refine (wmean_apply _ _ b r h').trans ?_
  unfold GnnRow.mean
  refine congrArg₂ Ideal.div (Finset.sum_congr rfl fun k _ => ?_)
    (congrArg (· + GnnRow.eps) (Finset.sum_congr rfl fun k _ => wts_apply P3 r k))
  rw [hid_apply, wts_apply]

/-- The second dense layer at (b, r, h), from the product's flattened row. -/
theorem dense2_apply (Q : FVec Ideal S1024x128 .f32) (b : Fin 2) (r : Fin 512) (h : Fin 128) :
    dense2 (F := Ideal) Q P6 (ix3 b r h) = GnnRow.leaky (Q (ix2 (row b r) h) + P6 (ix2 (0 : Fin 1) h)) := by
  unfold dense2
  refine (shapeCast_apply _ _ (ix3 b r h) (ix2 (row b r) h) ?_).trans ?_
  · rw [Shape.rowMajor_val_two, Shape.rowMajor_val_three]
    show (b.val * 512 + r.val) * 128 + h.val = (b.val * 512 + r.val) * 128 + h.val
    rfl
  refine (act_apply _ _).trans (congrArg GnnRow.leaky ?_)
  rw [addf_apply]
  refine congrArg (Q (ix2 (row b r) h) + ·) ?_
  exact (broadcastTo_apply _ _ (ix2 (row b r) h) (ix2 (0 : Fin 1) h) (fun a => match a with
    | ⟨0, _⟩ => by show 0 = if (1 : Nat) = 1 then 0 else _; rw [if_pos rfl]
    | ⟨1, _⟩ => by show h.val = if (128 : Nat) = 1 then 0 else h.val; rw [if_neg (by decide)])).trans (congrFun (shapeCast_self P6 _) _)

/-- The sum of squares of row (b, r). -/
theorem sumsq_apply (D : FVec Ideal S2x512x128 .f32) (b : Fin 2) (r : Fin 512) :
    sumsq (F := Ideal) D (ix2 b r) = ∑ h : Fin 128, D (ix3 b r h) * D (ix3 b r h) := by
  unfold sumsq
  refine (Ideal.multiReduction_add_single _ 0x00000000#32 reduces_S2x512x128_S2x512 (.inl rfl) rfl (ix2 b r)).trans ?_
  refine Finset.sum_congr rfl fun (h : Fin 128) _ => ?_
  have e : reduces_S2x512x128_S2x512.lift (ix2 b r) h = ix3 b r h := funext fun a => Fin.ext (by
    match a with
    | ⟨0, _⟩ => rfl
    | ⟨1, _⟩ => rfl
    | ⟨2, _⟩ => rfl)
  rw [e, mulf_apply]

/-! ## The stored value at (b, r, h) -/

/-- What the body stores at (b, r, h) — the second dense layer's row divided by its length plus ε — is the specification's
    row of the numbers of node (b, r). -/
theorem row_eq (b : Fin 2) (r : Fin 512) (h : Fin 128) :
    Ideal.div (GnnRow.leaky (k0_pay2 P0 P1 P2 P3 P4 P5 (ix2 (row b r) h) + P6 (ix2 (0 : Fin 1) h)))
        (Ideal.sqrt (sumsq (dense2 (k0_pay2 P0 P1 P2 P3 P4 P5) P6) (ix2 b r)) + GnnRow.eps)
      = GnnRow.out (fun k c => P0 (ix4 b r k c)) (fun k => P3 (ix2 r k)) (fun c => P4 (ix3 b r c)) (fun c h => P1 (ix2 c h))
          (fun h => P2 (ix2 (0 : Fin 1) h)) (fun f h => P5 (ix2 f h)) (fun h => P6 (ix2 (0 : Fin 1) h)) h := by
  have hd : ∀ h' : Fin 128, GnnRow.leaky (k0_pay2 P0 P1 P2 P3 P4 P5 (ix2 (row b r) h') + P6 (ix2 (0 : Fin 1) h'))
      = GnnRow.dense (fun k c => P0 (ix4 b r k c)) (fun k => P3 (ix2 r k)) (fun c => P4 (ix3 b r c)) (fun c h => P1 (ix2 c h))
          (fun h => P2 (ix2 (0 : Fin 1) h)) (fun f h => P5 (ix2 f h)) (fun h => P6 (ix2 (0 : Fin 1) h)) h' := fun h' => by
    rw [pay2_apply]
    rfl
  unfold GnnRow.out
  refine congrArg₂ Ideal.div (hd h) (congrArg (fun s => Ideal.sqrt s + GnnRow.eps) ?_)
  refine (sumsq_apply _ b r).trans (Finset.sum_congr rfl fun h' _ => ?_)
  rw [dense2_apply, hd]

end Cert.KernelRow

end
-- ==== Proof.KernelBlocks.lean ====
/-
  Where each window's block sits in its array, and that the output's blocks tile the result.

  The grid has 16 points; at point `t` the windows over the node axis (the gathered neighbour rows, the edge weights, the
  nodes' own rows and the result) hold nodes 512·t … 512·t + 511, and the four windows over the dense layers hold their
  arrays whole. An element of a block at coordinates y sits in the array at block index × block size + y on every
  axis. The result's 16 blocks cover all 8192 nodes: node n is in the block of point n / 512.
-/
import proofs.«115110_j4509715661235_1_alg».proof.Proof.Gen.KernelIdeal.Frame
import Idealize.ShloMosaic.Lib.Pipeline.Value
import Idealize.ShloMosaic.Lib.ValueIdx

noncomputable section

namespace Cert.KernelBlocks

open Cert.KernelIdeal Cert.KernelIdeal.Gen Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The printed index maps, decided over the 16 grid points: the node axis moves with the point, every other axis stays. -/
theorem idx_facts : ∀ t : Fin cfg0.N,
    (win0_0.index t (0 : Fin 4) = 0 ∧ win0_0.index t (1 : Fin 4) = t.val ∧ win0_0.index t (2 : Fin 4) = 0 ∧ win0_0.index t (3 : Fin 4) = 0)
    ∧ (win0_1.index t (0 : Fin 2) = t.val ∧ win0_1.index t (1 : Fin 2) = 0)
    ∧ (win0_2.index t (0 : Fin 3) = 0 ∧ win0_2.index t (1 : Fin 3) = t.val ∧ win0_2.index t (2 : Fin 3) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 3) = 0 ∧ win0_7.index t (1 : Fin 3) = t.val ∧ win0_7.index t (2 : Fin 3) = 0) :=
  (by decide +kernel : ∀ t : Fin grid0.N, _)

/-! ## Each input window's block read in its array -/

theorem blk0 (c : Dev nD) (t : Fin cfg0.N) (b : Fin 2) (r : Fin 512) (k : Fin 32) (x : Fin 128) (n : Fin 8192) (hn : n.val = t.val * 512 + r.val) :
    (iblk m c 0 t : Vec Ideal S2x512x32x128 .bf16) (ix4 b r k x) = (V m c main_v7 : S2x8192x32x128.Idx → EReal) (ix4 b n k x) := by
  have ef := idx_facts t
  unfold iblk
  rw [View.read_apply]
  show (V m c main_v7 : S2x8192x32x128.Idx → EReal) _ = (V m c main_v7 : S2x8192x32x128.Idx → EReal) _
  refine congrArg (V m c main_v7 : S2x8192x32x128.Idx → EReal) (funext fun a => Fin.ext ?_)
  match a with
  | ⟨0, _⟩ => show win0_0.index t (0 : Fin 4) * 2 + 1 * b.val = b.val; rw [ef.1.1]; omega
  | ⟨1, _⟩ => show win0_0.index t (1 : Fin 4) * 512 + 1 * r.val = n.val; rw [ef.1.2.1, hn]; omega
  | ⟨2, _⟩ => show win0_0.index t (2 : Fin 4) * 32 + 1 * k.val = k.val; rw [ef.1.2.2.1]; omega
  | ⟨3, _⟩ => show win0_0.index t (3 : Fin 4) * 128 + 1 * x.val = x.val; rw [ef.1.2.2.2]; omega

theorem blk1 (c : Dev nD) (t : Fin cfg0.N) (r : Fin 512) (k : Fin 32) (n : Fin 8192) (hn : n.val = t.val * 512 + r.val) :
    (iblk m c 1 t : Vec Ideal S512x32 .f32) (ix2 r k) = (V m c main_v24 : S8192x32.Idx → EReal) (ix2 n k) := by
  have ef := idx_facts t
  unfold iblk
  rw [View.read_apply]
  show (V m c main_v24 : S8192x32.Idx → EReal) _ = (V m c main_v24 : S8192x32.Idx → EReal) _
  refine congrArg (V m c main_v24 : S8192x32.Idx → EReal) (funext fun a => Fin.ext ?_)
  match a with
  | ⟨0, _⟩ => show win0_1.index t (0 : Fin 2) * 512 + 1 * r.val = n.val; rw [ef.2.1.1, hn]; omega
  | ⟨1, _⟩ => show win0_1.index t (1 : Fin 2) * 32 + 1 * k.val = k.val; rw [ef.2.1.2]; omega

theorem blk2 (c : Dev nD) (t : Fin cfg0.N) (b : Fin 2) (r : Fin 512) (x : Fin 128) (n : Fin 8192) (hn : n.val = t.val * 512 + r.val) :
    (iblk m c 2 t : Vec Ideal S2x512x128 .bf16) (ix3 b r x) = (V m c main_v0 : S2x8192x128.Idx → EReal) (ix3 b n x) := by
  have ef := idx_facts t
  unfold iblk
  rw [View.read_apply]
  show (V m c main_v0 : S2x8192x128.Idx → EReal) _ = (V m c main_v0 : S2x8192x128.Idx → EReal) _
  refine congrArg (V m c main_v0 : S2x8192x128.Idx → EReal) (funext fun a => Fin.ext ?_)
  match a with
  | ⟨0, _⟩ => show win0_2.index t (0 : Fin 3) * 2 + 1 * b.val = b.val; rw [ef.2.2.1.1]; omega
  | ⟨1, _⟩ => show win0_2.index t (1 : Fin 3) * 512 + 1 * r.val = n.val; rw [ef.2.2.1.2.1, hn]; omega
  | ⟨2, _⟩ => show win0_2.index t (2 : Fin 3) * 128 + 1 * x.val = x.val; rw [ef.2.2.1.2.2]; omega

theorem blk3 (c : Dev nD) (t : Fin cfg0.N) (x : Fin 128) (h : Fin 128) :
    (iblk m c 3 t : Vec Ideal S128x128 .f32) (ix2 x h) = (V m c main_arg3 : S128x128.Idx → EReal) (ix2 x h) := by
  have ef := idx_facts t
  unfold iblk
  rw [View.read_apply]
  show (V m c main_arg3 : S128x128.Idx → EReal) _ = (V m c main_arg3 : S128x128.Idx → EReal) _
  refine congrArg (V m c main_arg3 : S128x128.Idx → EReal) (funext fun a => Fin.ext ?_)
  match a with
  | ⟨0, _⟩ => show win0_3.index t (0 : Fin 2) * 128 + 1 * x.val = x.val; rw [ef.2.2.2.1.1]; omega
  | ⟨1, _⟩ => show win0_3.index t (1 : Fin 2) * 128 + 1 * h.val = h.val; rw [ef.2.2.2.1.2]; omega

theorem blk4 (c : Dev nD) (t : Fin cfg0.N) (h : Fin 128) :
    (iblk m c 4 t : Vec Ideal S1x128 .f32) (ix2 (0 : Fin 1) h) = (V m c main_v25 : S1x128.Idx → EReal) (ix2 (0 : Fin 1) h) := by
  have ef := idx_facts t
  unfold iblk
  rw [View.read_apply]
  show (V m c main_v25 : S1x128.Idx → EReal) _ = (V m c main_v25 : S1x128.Idx → EReal) _
  refine congrArg (V m c main_v25 : S1x128.Idx → EReal) (funext fun a => Fin.ext ?_)
  match a with
  | ⟨0, _⟩ => show win0_4.index t (0 : Fin 2) * 1 + 1 * 0 = 0; rw [ef.2.2.2.2.1.1]
  | ⟨1, _⟩ => show win0_4.index t (1 : Fin 2) * 128 + 1 * h.val = h.val; rw [ef.2.2.2.2.1.2]; omega

theorem blk5 (c : Dev nD) (t : Fin cfg0.N) (f : Fin 256) (h : Fin 128) :
    (iblk m c 5 t : Vec Ideal S256x128 .f32) (ix2 f h) = (V m c main_arg5 : S256x128.Idx → EReal) (ix2 f h) := by
  have ef := idx_facts t
  unfold iblk
  rw [View.read_apply]
  show (V m c main_arg5 : S256x128.Idx → EReal) _ = (V m c main_arg5 : S256x128.Idx → EReal) _
  refine congrArg (V m c main_arg5 : S256x128.Idx → EReal) (funext fun a => Fin.ext ?_)
  match a with
  | ⟨0, _⟩ => show win0_5.index t (0 : Fin 2) * 256 + 1 * f.val = f.val; rw [ef.2.2.2.2.2.1.1]; omega
  | ⟨1, _⟩ => show win0_5.index t (1 : Fin 2) * 128 + 1 * h.val = h.val; rw [ef.2.2.2.2.2.1.2]; omega

theorem blk6 (c : Dev nD) (t : Fin cfg0.N) (h : Fin 128) :
    (iblk m c 6 t : Vec Ideal S1x128 .f32) (ix2 (0 : Fin 1) h) = (V m c main_v26 : S1x128.Idx → EReal) (ix2 (0 : Fin 1) h) := by
  have ef := idx_facts t
  unfold iblk
  rw [View.read_apply]
  show (V m c main_v26 : S1x128.Idx → EReal) _ = (V m c main_v26 : S1x128.Idx → EReal) _
  refine congrArg (V m c main_v26 : S1x128.Idx → EReal) (funext fun a => Fin.ext ?_)
  match a with
  | ⟨0, _⟩ => show win0_6.index t (0 : Fin 2) * 1 + 1 * 0 = 0; rw [ef.2.2.2.2.2.2.1.1]
  | ⟨1, _⟩ => show win0_6.index t (1 : Fin 2) * 128 + 1 * h.val = h.val; rw [ef.2.2.2.2.2.2.1.2]; omega

/-! ## The result window's blocks -/

/-- Where element (b, r, h) of the result's block at point `t` sits in the result. -/
theorem emb7 (t : Fin cfg0.N) (b : Fin 2) (r : Fin 512) (h : Fin 128) (n : Fin 8192) (hn : n.val = t.val * 512 + r.val) :
    ((cfg0.win 7).blk t).view.emb (ix3 b r h) = (ix3 b n h : S2x8192x128.Idx) := by
  have ef := idx_facts t
  refine funext fun a => Fin.ext ?_
  match a with
  | ⟨0, _⟩ => show win0_7.index t (0 : Fin 3) * 2 + 1 * b.val = b.val; rw [ef.2.2.2.2.2.2.2.1]; omega
  | ⟨1, _⟩ => show win0_7.index t (1 : Fin 3) * 512 + 1 * r.val = n.val; rw [ef.2.2.2.2.2.2.2.2.1, hn]; omega
  | ⟨2, _⟩ => show win0_7.index t (2 : Fin 3) * 128 + 1 * h.val = h.val; rw [ef.2.2.2.2.2.2.2.2.2]; omega

/-- An index of the result is in point `t`'s block iff each coordinate is in the block's range on its axis. -/
theorem mem_blk7 (t : Fin cfg0.N) (i : S2x8192x128.Idx) :
    i ∈ ((cfg0.win 7).blk t).view.set ↔ ∀ a : Fin 3, win0_7.index t a * S2x512x128.size a ≤ (i a).val ∧ (i a).val < win0_7.index t a * S2x512x128.size a + S2x512x128.size a := by
  show i ∈ ((View.whole main_v27).slice (win0_7.rect t)).set ↔ _
  rw [View.set_slice_whole, Rect.mem_set_unit]
  exact Iff.rfl

/-- Every index of the result is in some point's block: node n in the block of point n / 512. -/
theorem cover7 (i : S2x8192x128.Idx) : ∃ t : Fin cfg0.N, (cfg0.win 7).flush t = true ∧ i ∈ ((cfg0.win 7).blk t).view.set := by
  have h0 : (i 0).val < 2 := (i 0).isLt
  have h1 : (i 1).val < 8192 := (i 1).isLt
  have h2 : (i 2).val < 128 := (i 2).isLt
  have hN : cfg0.N = 16 := N_0
  obtain ⟨t, ht⟩ : ∃ t : Fin cfg0.N, t.val = (i 1).val / 512 := ⟨⟨(i 1).val / 512, by rw [hN]; omega⟩, rfl⟩
  have ef := idx_facts t
  refine ⟨t, flush0_7 t, ?_⟩
  rw [mem_blk7]
  intro a
  match a with
  | ⟨0, _⟩ => show win0_7.index t (0 : Fin 3) * 2 ≤ (i 0).val ∧ (i 0).val < win0_7.index t (0 : Fin 3) * 2 + 2; rw [ef.2.2.2.2.2.2.2.1]; omega
  | ⟨1, _⟩ => show win0_7.index t (1 : Fin 3) * 512 ≤ (i 1).val ∧ (i 1).val < win0_7.index t (1 : Fin 3) * 512 + 512; rw [ef.2.2.2.2.2.2.2.2.1, ht]; omega
  | ⟨2, _⟩ => show win0_7.index t (2 : Fin 3) * 128 ≤ (i 2).val ∧ (i 2).val < win0_7.index t (2 : Fin 3) * 128 + 128; rw [ef.2.2.2.2.2.2.2.2.2]; omega

end Cert.KernelBlocks

end
-- ==== Proof.KernelArray.lean ====
/-
  The result array after the run, as one function of the arrays the region reads.

  At grid point `t` the body's stored block, read at (b, r, h), is the specification's row of the numbers of node
  (b, r) of the point's blocks (the row-by-row reading of the body); those blocks are nodes 512·t … 512·t + 511 of the
  arrays, so the point writes back exactly block `t` of `G` — the specification's row of node (b, n) at every index
  (b, n, h) of the result. The 16 blocks tile the result, so the result ends holding `G` everywhere.
-/
import proofs.«115110_j4509715661235_1_alg».proof.Proof.ValuePatched
import proofs.«115110_j4509715661235_1_alg».proof.Proof.KernelRow
import proofs.«115110_j4509715661235_1_alg».proof.Proof.KernelBlocks

noncomputable section

namespace Cert.KernelArray

open Cert.KernelIdeal Cert.KernelIdeal.Gen Idealize.ShloMosaic Idealize.ShloMosaic.TcCoe Idealize.ShloMosaic.ValueIdx Idealize.SL.Sem
open Idealize.ShloMosaic.Pipeline (Dat)

/-- The result as ONE function of the gathered neighbour rows `NE`, the gathered edge weights `NW`, the nodes' rows `E` and the
    two dense layers: at (b, n, h), coordinate `h` of the specification's row of node (b, n). -/
def G (NE : (⟨4, ![2, 8192, 32, 128]⟩ : Shape).Idx → EReal) (NW : (⟨2, ![8192, 32]⟩ : Shape).Idx → EReal)
    (E : (⟨3, ![2, 8192, 128]⟩ : Shape).Idx → EReal) (QW : (⟨2, ![128, 128]⟩ : Shape).Idx → EReal) (QB : (⟨2, ![1, 128]⟩ : Shape).Idx → EReal)
    (WW : (⟨2, ![256, 128]⟩ : Shape).Idx → EReal) (WB : (⟨2, ![1, 128]⟩ : Shape).Idx → EReal) : (⟨3, ![2, 8192, 128]⟩ : Shape).Idx → EReal :=
  fun i => GnnRow.out (fun k c => NE (ix4 (i 0 : Fin 2) (i 1 : Fin 8192) k c)) (fun k => NW (ix2 (i 1 : Fin 8192) k))
    (fun c => E (ix3 (i 0 : Fin 2) (i 1 : Fin 8192) c)) (fun c h => QW (ix2 c h)) (fun h => QB (ix2 (0 : Fin 1) h))
    (fun f h => WW (ix2 f h)) (fun h => WB (ix2 (0 : Fin 1) h)) (i 2 : Fin 128)

theorem G_apply (NE : (⟨4, ![2, 8192, 32, 128]⟩ : Shape).Idx → EReal) (NW : (⟨2, ![8192, 32]⟩ : Shape).Idx → EReal)
    (E : (⟨3, ![2, 8192, 128]⟩ : Shape).Idx → EReal) (QW : (⟨2, ![128, 128]⟩ : Shape).Idx → EReal) (QB : (⟨2, ![1, 128]⟩ : Shape).Idx → EReal)
    (WW : (⟨2, ![256, 128]⟩ : Shape).Idx → EReal) (WB : (⟨2, ![1, 128]⟩ : Shape).Idx → EReal) (b : Fin 2) (n : Fin 8192) (h : Fin 128) :
    G NE NW E QW QB WW WB (ix3 b n h)
      = GnnRow.out (fun k c => NE (ix4 b n k c)) (fun k => NW (ix2 n k)) (fun c => E (ix3 b n c)) (fun c h => QW (ix2 c h))
          (fun h => QB (ix2 (0 : Fin 1) h)) (fun f h => WW (ix2 f h)) (fun h => WB (ix2 (0 : Fin 1) h)) h := rfl

/-! ## One point's stored block, row by row -/

/-- The block the body leaves, read at (b, r, h): the specification's row of the blocks' numbers at (b, r). -/
theorem E7_row (P0 : Vec Ideal S2x512x32x128 .bf16) (P1 : Vec Ideal S128x128 .f32) (P2 : Vec Ideal S1x128 .f32)
    (P3 : Vec Ideal S512x32 .f32) (P4 : Vec Ideal S2x512x128 .bf16) (P5 : Vec Ideal S256x128 .f32) (P6 : Vec Ideal S1x128 .f32)
    (b : Fin 2) (r : Fin 512) (h : Fin 128) :
    Cert.KernelIdeal.ValueP.E7 P0 P1 P2 P3 P4 P5 P6 (ix3 b r h)
      = GnnRow.out (fun k c => P0 (ix4 b r k c)) (fun k => P3 (ix2 r k)) (fun c => P4 (ix3 b r c)) (fun c h => P1 (ix2 c h))
          (fun h => P2 (ix2 (0 : Fin 1) h)) (fun f h => P5 (ix2 f h)) (fun h => P6 (ix2 (0 : Fin 1) h)) h := by
  have e0 : Cert.KernelIdeal.ValueP.ix7_0 (ix3 b r h) = ix2 (KernelRow.row b r) h := funext fun a => Fin.ext (by
    match a with
    | ⟨0, _⟩ => rfl
    | ⟨1, _⟩ => rfl)
  have e1 : Cert.KernelIdeal.ValueP.ix7_1 (ix3 b r h) = ix2 (0 : Fin 1) h := funext fun a => Fin.ext (by
    match a with
    | ⟨0, _⟩ => rfl
    | ⟨1, _⟩ => rfl)
  have e2 : Cert.KernelIdeal.ValueP.ix7_2 (ix3 b r h) = ix2 (KernelRow.row b r) h := funext fun a => Fin.ext (by
    match a with
    | ⟨0, _⟩ => rfl
    | ⟨1, _⟩ => rfl)
  have e3 : Cert.KernelIdeal.ValueP.ix7_3 (ix3 b r h) = ix2 (0 : Fin 1) h := funext fun a => Fin.ext (by
    match a with
    | ⟨0, _⟩ => rfl
    | ⟨1, _⟩ => rfl)
  have e4 : Cert.KernelIdeal.ValueP.ix7_4 (ix3 b r h) = ix2 (KernelRow.row b r) h := funext fun a => Fin.ext (by
    match a with
    | ⟨0, _⟩ => rfl
    | ⟨1, _⟩ => rfl)
  have e5 : Cert.KernelIdeal.ValueP.ix7_5 (ix3 b r h) = ix2 (0 : Fin 1) h := funext fun a => Fin.ext (by
    match a with
    | ⟨0, _⟩ => rfl
    | ⟨1, _⟩ => rfl)
  have e6 : Cert.KernelIdeal.ValueP.ix7_6 (ix3 b r h) = ix2 b r := funext fun a => Fin.ext (by
    match a with
    | ⟨0, _⟩ => rfl
    | ⟨1, _⟩ => rfl)
  unfold Cert.KernelIdeal.ValueP.E7
  rw [e0, e1, e2, e3, e4, e5, e6]
  exact KernelRow.row_eq P0 P1 P2 P3 P4 P5 P6 b r h

/-! ## From blocks to the array -/

variable (m : (ℓ : Loc nD τ sig) → Buf (Elt Ideal) ℓ) (ρ : Dev nD → PrngReg)

/-- `G` of the arrays as the region finds them. -/
def Gk (c : Dev nD) : S2x8192x128.Idx → EReal :=
  G (V m c main_v7) (V m c main_v24) (V m c main_v0) (V m c main_arg3) (V m c main_v25) (V m c main_arg5) (V m c main_v26)

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- Reading an array through the result window's block at point `t` is reading it at the block's place in the array. -/
theorem read_blk7 (f : S2x8192x128.Idx → EReal) (t : Fin cfg0.N) (y : S2x512x128.Idx) :
    ((cfg0.win 7).blk t).view.read (Elt Ideal) f y = f (((cfg0.win 7).blk t).view.emb y) := rfl

/-- What point `t` writes back is block `t` of `G`. -/
theorem flushed_eq (c : Dev nD) (t : Fin cfg0.N) :
    (dats m 0 c).flushed 7 t = ((cfg0.win 7).blk t).view.read (Elt Ideal) (Gk m c) := by
  rw [Cert.KernelIdeal.ValueP.flushed7]
  unfold out0_7
  simp only [View.ld_unit_zero (S := S2x512x32x128) hz4, View.ld_unit_zero (S := S128x128) hz2, View.ld_unit_zero (S := S1x128) hz2,
    View.ld_unit_zero (S := S512x32) hz2, View.ld_unit_zero (S := S2x512x128) hz3, View.ld_unit_zero (S := S256x128) hz2]
  funext y
  obtain ⟨b, r, h, rfl⟩ : ∃ (b : Fin 2) (r : Fin 512) (h : Fin 128), y = ix3 b r h := ⟨y 0, y 1, y 2, eq_ix3 y⟩
  obtain ⟨n, hn⟩ : ∃ n : Fin 8192, n.val = t.val * 512 + r.val :=
    ⟨⟨t.val * 512 + r.val, by have := t.isLt; have hN : cfg0.N = 16 := N_0; have := r.isLt; omega⟩, rfl⟩
  refine (Cert.KernelIdeal.ValueP.canon7_eq (iblk m c 0 t) (iblk m c 3 t) (iblk m c 4 t) (iblk m c 1 t) (iblk m c 2 t) (iblk m c 5 t) (iblk m c 6 t) (ix3 b r h)).trans ?_
  rw [E7_row (iblk m c 0 t) (iblk m c 3 t) (iblk m c 4 t) (iblk m c 1 t) (iblk m c 2 t) (iblk m c 5 t) (iblk m c 6 t) b r h]
  refine Eq.trans ?_ (read_blk7 (Gk m c) t (ix3 b r h)).symm
  rw [KernelBlocks.emb7 t b r h n hn]
  unfold Gk
  rw [G_apply]
  have h0 : (fun (k : Fin 32) (x : Fin 128) => (iblk m c 0 t : Vec Ideal S2x512x32x128 .bf16) (ix4 b r k x))
      = fun k x => (V m c main_v7 : S2x8192x32x128.Idx → EReal) (ix4 b n k x) :=
    funext fun k => funext fun x => KernelBlocks.blk0 m c t b r k x n hn
  have h1 : (fun (k : Fin 32) => (iblk m c 1 t : Vec Ideal S512x32 .f32) (ix2 r k))
      = fun k => (V m c main_v24 : S8192x32.Idx → EReal) (ix2 n k) :=
    funext fun k => KernelBlocks.blk1 m c t r k n hn
  have h2 : (fun (x : Fin 128) => (iblk m c 2 t : Vec Ideal S2x512x128 .bf16) (ix3 b r x))
      = fun x => (V m c main_v0 : S2x8192x128.Idx → EReal) (ix3 b n x) :=
    funext fun x => KernelBlocks.blk2 m c t b r x n hn
  have h3 : (fun (x : Fin 128) (h' : Fin 128) => (iblk m c 3 t : Vec Ideal S128x128 .f32) (ix2 x h'))
      = fun x h' => (V m c main_arg3 : S128x128.Idx → EReal) (ix2 x h') :=
    funext fun x => funext fun h' => KernelBlocks.blk3 m c t x h'
  have h4 : (fun (h' : Fin 128) => (iblk m c 4 t : Vec Ideal S1x128 .f32) (ix2 (0 : Fin 1) h'))
      = fun h' => (V m c main_v25 : S1x128.Idx → EReal) (ix2 (0 : Fin 1) h') :=
    funext fun h' => KernelBlocks.blk4 m c t h'
  have h5 : (fun (f : Fin 256) (h' : Fin 128) => (iblk m c 5 t : Vec Ideal S256x128 .f32) (ix2 f h'))
      = fun f h' => (V m c main_arg5 : S256x128.Idx → EReal) (ix2 f h') :=
    funext fun f => funext fun h' => KernelBlocks.blk5 m c t f h'
  have h6 : (fun (h' : Fin 128) => (iblk m c 6 t : Vec Ideal S1x128 .f32) (ix2 (0 : Fin 1) h'))
      = fun h' => (V m c main_v26 : S1x128.Idx → EReal) (ix2 (0 : Fin 1) h') :=
    funext fun h' => KernelBlocks.blk6 m c t h'
  rw [h0, h1, h2, h3, h4, h5, h6]

/-- The result array after the run is `G` of the arrays the region finds: the 16 blocks tile it. -/
theorem final (c : Dev nD) : (dats m 0 c).arrAt 7 cfg0.N = Gk m c :=
  (dats m 0 c).arrAt_eq_of_cover 7 (Gk m c) (fun t _ => flushed_eq m c t) KernelBlocks.cover7

/-- The run, read: the result at `G`, the arguments unchanged. -/
theorem run : θ_run defs (onTc (τ := τ) (main (F := Ideal))) ⟨m, fun _ => 0, ρ⟩ fun r => ∀ c : Dev nD,
      r.2.mem ((c : Thread nD τ).loc main_v27) = Gk m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Cert.KernelIdeal.ValueP.run_blocks m ρ)

end Cert.KernelArray

end
-- ==== Proof.KernelHost.lean ====
/-
  What the region finds in the arrays the host wrote before it.

  Before the region the host rounds the embeddings to the 16-bit format (the identity on extended reals), gathers the
  32 neighbour rows of every node from them and the 32 edge weights of every node from the weight matrix — the same
  two gathers, through the same index arithmetic on the neighbour table, as the reference's — and gives the two
  bias vectors a leading unit axis.
-/
import proofs.«115110_j4509715661235_1_alg».proof.Proof.Gen.KernelIdeal.Frame
import proofs.«115110_j4509715661235_1_alg».proof.Proof.Gen.ReferenceIdeal.Read
import Idealize.ShloMosaic.Lib.StableHlo.Run
import Idealize.ShloMosaic.Lib.Pipeline.Value
import Idealize.ShloMosaic.Lib.ValueIdx

noncomputable section

namespace Cert.KernelHost

open Cert.KernelIdeal Cert.KernelIdeal.Gen Idealize.ShloMosaic Idealize.ShloMosaic.TcCoe Idealize.ShloMosaic.ValueIdx

variable (m : (ℓ : Loc nD τ sig) → Buf (Elt Ideal) ℓ)

/-- The nodes' rows the region reads are the embeddings: rounding to the 16-bit format is the identity here. -/
theorem V_v0 (c : Dev nD) : (V m c main_v0 : S2x8192x128.Idx → EReal) = (m ((c : Thread nD τ).loc main_arg0) : S2x8192x128.Idx → EReal) := by
  dsimp only [V, hostOps0]
  after_results <;> rfl

/-- The gathered neighbour rows are the reference's gather of the embeddings. -/
theorem V_v7 (c : Dev nD) : (V m c main_v7 : S2x8192x32x128.Idx → EReal)
    = Cert.ReferenceIdeal.Read.val_main_v6 (F := Ideal) (m ((c : Thread nD τ).loc main_arg0)) (m ((c : Thread nD τ).loc main_arg2)) := by
  dsimp only [V, hostOps0]
  after_results <;> rfl

/-- The gathered edge weights are the reference's gather of the weight matrix. -/
theorem V_v24 (c : Dev nD) : (V m c main_v24 : S8192x32.Idx → EReal)
    = Cert.ReferenceIdeal.Read.val_main_v32 (F := Ideal) (m ((c : Thread nD τ).loc main_arg1)) (m ((c : Thread nD τ).loc main_arg2)) := by
  dsimp only [V, hostOps0]
  after_results_simp <;> rfl

/-- The first bias with a leading unit axis, read at feature `h`. -/
theorem V_v25 (c : Dev nD) (h : Fin 128) : (V m c main_v25 : S1x128.Idx → EReal) (ix2 (0 : Fin 1) h)
    = (m ((c : Thread nD τ).loc main_arg4) : S128.Idx → EReal) (ix1 h) := by
  have e : (V m c main_v25 : S1x128.Idx → EReal)
      = shapeCast S1x128 (m ((c : Thread nD τ).loc main_arg4) : S128.Idx → EReal) shapeCasts_S128_S1x128 := by
    dsimp only [V, hostOps0]
    after_results <;> rfl
  rw [e]
  refine shapeCast_apply _ _ (ix2 (0 : Fin 1) h) (ix1 h) ?_
  rw [Shape.rowMajor_val_one, Shape.rowMajor_val_two]
  show h.val = 0 * 128 + h.val
  omega

/-- The second bias with a leading unit axis, read at feature `h`. -/
theorem V_v26 (c : Dev nD) (h : Fin 128) : (V m c main_v26 : S1x128.Idx → EReal) (ix2 (0 : Fin 1) h)
    = (m ((c : Thread nD τ).loc main_arg6) : S128.Idx → EReal) (ix1 h) := by
  have e : (V m c main_v26 : S1x128.Idx → EReal)
      = shapeCast S1x128 (m ((c : Thread nD τ).loc main_arg6) : S128.Idx → EReal) shapeCasts_S128_S1x128 := by
    dsimp only [V, hostOps0]
    after_results <;> rfl
  rw [e]
  refine shapeCast_apply _ _ (ix2 (0 : Fin 1) h) (ix1 h) ?_
  rw [Shape.rowMajor_val_one, Shape.rowMajor_val_two]
  show h.val = 0 * 128 + h.val
  omega

end Cert.KernelHost

end
-- ==== Proof.RefRow.lean ====
/-
  The reference program read one node at a time.

  For a batch entry `b`, a node `n` and an output coordinate `h`, the reference's result at `(b, n, h)` is the row
  function `Cert.GnnRow.out` of the node's 32 gathered neighbour rows, its 32 gathered edge weights, its own embedding
  row and the two dense layers. The two gathers stay closed: the row function is applied to what they return.
  The steps follow the row function: `hidden_at`, `mean_at`, `joined_at`, `dense_at`, then `ref_row`.
-/
import proofs.«115110_j4509715661235_1_alg».proof.Proof.Gen.ReferenceIdeal.Read
import proofs.«115110_j4509715661235_1_alg».proof.Proof.Row

noncomputable section

namespace Cert.RefRow

open Cert.ReferenceIdeal Cert.ReferenceIdeal.Read Idealize.ShloMosaic Idealize.ShloMosaic.ValueIdx

section Rows

variable (x0 : (⟨S2x8192x128, .f32⟩ : BufTy).Contents (Elt Ideal)) (x1 : (⟨S8192x8192, .f32⟩ : BufTy).Contents (Elt Ideal))
  (x2 : (⟨S8192x32, .i32⟩ : BufTy).Contents (Elt Ideal)) (x3 : (⟨S128x128, .f32⟩ : BufTy).Contents (Elt Ideal))
  (x4 : (⟨S128, .f32⟩ : BufTy).Contents (Elt Ideal)) (x5 : (⟨S256x128, .f32⟩ : BufTy).Contents (Elt Ideal))
  (x6 : (⟨S128, .f32⟩ : BufTy).Contents (Elt Ideal))

/-- Coordinate `c` of the `k`-th gathered neighbour row of node `n`, batch entry `b`. -/
abbrev rowNe (b : Fin 2) (n : Fin 8192) : Fin 32 → Fin 128 → EReal :=
  fun k c => val_main_v6 (F := Ideal) x0 x2 (ix4 b n k c)
/-- The gathered weight of node `n`'s `k`-th edge. -/
abbrev rowNw (n : Fin 8192) : Fin 32 → EReal := fun k => val_main_v32 (F := Ideal) x1 x2 (ix2 n k)
/-- Node `n`'s own embedding row in batch entry `b`. -/
abbrev rowE (b : Fin 2) (n : Fin 8192) : Fin 128 → EReal := fun c => x0 (ix3 b n c)
/-- The first dense layer's matrix and bias, the second's matrix and bias, by coordinates. -/
abbrev rowQw : Fin 128 → Fin 128 → EReal := fun c h' => x3 (ix2 c h')
abbrev rowQb : Fin 128 → EReal := fun h' => x4 (ix1 h')
abbrev rowWw : Fin 256 → Fin 128 → EReal := fun f h' => x5 (ix2 f h')
abbrev rowWb : Fin 128 → EReal := fun h' => x6 (ix1 h')

/-- The first dense layer with its rectifier, at neighbour `k` and coordinate `h`: the contraction runs over the
    gathered row's coordinate, the bias is read at `h`. -/
theorem hidden_at (b : Fin 2) (n : Fin 8192) (k : Fin 32) (h : Fin 128) :
    val_main_v15 (F := Ideal) x0 x2 x3 x4 (ix4 b n k h)
      = Cert.GnnRow.hidden (rowNe x0 x2 b n) (rowQw x3) (rowQb x4) k h := by
  have el : ∀ c : Fin 128, lidx_main_v7 (ix4 b n k h) c = ix4 b n k c := fun c => funext fun a => by
    match a with | ⟨0, _⟩ => rfl | ⟨1, _⟩ => rfl | ⟨2, _⟩ => rfl | ⟨3, _⟩ => rfl
  have er : ∀ c : Fin 128, ridx_main_v7 (ix4 b n k h) c = ix2 c h := fun c => funext fun a => by
    match a with | ⟨0, _⟩ => rfl | ⟨1, _⟩ => rfl
  have eb : idx_main_v8 (idx_main_v9 (ix4 b n k h)) = ix1 h := funext fun a => by
    match a with | ⟨0, _⟩ => rfl
  simp only [val_main_v15_apply, val_main_v12_apply, val_main_v14_apply, val_main_v13_apply, val_main_cst_1_apply,
    val_main_v11_apply, val_main_cst_apply, val_main_v10_apply, val_main_v7_apply, val_main_v9_apply, val_main_v8_apply,
    el, er, eb]
  rfl

/-- The edge-weighted mean at coordinate `h`: both sums run over the 32 neighbours and start from the zero word, the
    weight of neighbour `k` is the gathered one whatever the batch entry and coordinate. -/
theorem mean_at (b : Fin 2) (n : Fin 8192) (h : Fin 128) :
    val_main_v41 (F := Ideal) x0 x1 x2 x3 x4 (ix3 b n h)
      = Cert.GnnRow.mean (rowNe x0 x2 b n) (rowNw x1 x2 n) (rowQw x3) (rowQb x4) h := by
  have e36 : ∀ k : Fin 32, idx_main_v36 (ix3 b n h) k = ix4 b n k h := fun k => funext fun a => by
    match a with | ⟨0, _⟩ => rfl | ⟨1, _⟩ => rfl | ⟨2, _⟩ => rfl | ⟨3, _⟩ => rfl
  have e34 : ∀ k : Fin 32, idx_main_v33 (idx_main_v34 (ix4 b n k h)) = ix2 n k := fun k => funext fun a => by
    match a with | ⟨0, _⟩ => rfl | ⟨1, _⟩ => rfl
  have e37 : ∀ k : Fin 32, idx_main_v33 (idx_main_v37 (idx_main_v40 (ix3 b n h)) k) = ix2 n k := fun k => funext fun a => by
    match a with | ⟨0, _⟩ => rfl | ⟨1, _⟩ => rfl
  simp only [val_main_v41_apply, val_main_v36_apply, val_main_cst_6_apply, val_main_v35_apply, val_main_v34_apply,
    val_main_v33_apply, val_main_v40_apply, val_main_v39_apply, val_main_v37_apply, val_main_cst_7_apply,
    val_main_v38_apply, val_main_cst_8_apply, e36, e34, e37, hidden_at, Ideal.ofBits_def, Ideal.ofBits_zero_f32, zero_add]
  rfl

/-- The joined row at position `f`: below 128 the node's own embedding, from 128 on the mean, 128 less. -/
theorem joined_at (b : Fin 2) (n : Fin 8192) (f : Fin 256) :
    val_main_v42 (F := Ideal) x0 x1 x2 x3 x4 (ix3 b n f)
      = Cert.GnnRow.joined (rowE x0 b n)
          (Cert.GnnRow.mean (rowNe x0 x2 b n) (rowNw x1 x2 n) (rowQw x3) (rowQb x4)) f := by
  unfold val_main_v42 Cert.GnnRow.joined
  by_cases hf : f.val < 128
  · rw [dif_pos hf]
    exact concatenate_pair_apply_left (t := S2x8192x256) (s₁ := S2x8192x128) (s₂ := S2x8192x128) 2 x0
      (val_main_v41 (F := Ideal) x0 x1 x2 x3 x4) _ (ix3 b n f) rfl (ix3 b n ⟨f.val, hf⟩)
      (fun a => by match a with | ⟨0, _⟩ => rfl | ⟨1, _⟩ => rfl | ⟨2, _⟩ => rfl)
  · rw [dif_neg hf]
    have hf' : f.val - 128 < 128 := by have := f.isLt; omega
    refine (concatenate_pair_apply_right (t := S2x8192x256) (s₁ := S2x8192x128) (s₂ := S2x8192x128) 2 x0
      (val_main_v41 (F := Ideal) x0 x1 x2 x3 x4) _ (ix3 b n f) rfl rfl (ix3 b n ⟨f.val - 128, hf'⟩)
      (fun a ha => by
        match a, ha with
        | ⟨0, _⟩, _ => rfl
        | ⟨1, _⟩, _ => rfl
        | ⟨2, _⟩, ha => exact absurd rfl ha)
      (by show f.val - 128 + 128 = f.val; omega)).trans ?_
    exact mean_at x0 x1 x2 x3 x4 b n ⟨f.val - 128, hf'⟩

/-- The second dense layer with its rectifier at coordinate `h`: the contraction runs over the joined row's 256
    positions, the bias is read at `h`. -/
theorem dense_at (b : Fin 2) (n : Fin 8192) (h : Fin 128) :
    val_main_v51 (F := Ideal) x0 x1 x2 x3 x4 x5 x6 (ix3 b n h)
      = Cert.GnnRow.dense (rowNe x0 x2 b n) (rowNw x1 x2 n) (rowE x0 b n) (rowQw x3) (rowQb x4) (rowWw x5) (rowWb x6) h := by
  have el : ∀ f : Fin 256, lidx_main_v43 (ix3 b n h) f = ix3 b n f := fun f => funext fun a => by
    match a with | ⟨0, _⟩ => rfl | ⟨1, _⟩ => rfl | ⟨2, _⟩ => rfl
  have er : ∀ f : Fin 256, ridx_main_v43 (ix3 b n h) f = ix2 f h := fun f => funext fun a => by
    match a with | ⟨0, _⟩ => rfl | ⟨1, _⟩ => rfl
  have eb : idx_main_v44 (idx_main_v45 (ix3 b n h)) = ix1 h := funext fun a => by
    match a with | ⟨0, _⟩ => rfl
  simp only [val_main_v51_apply, val_main_v48_apply, val_main_v50_apply, val_main_v49_apply, val_main_cst_10_apply,
    val_main_v47_apply, val_main_cst_9_apply, val_main_v46_apply, val_main_v43_apply, val_main_v45_apply,
    val_main_v44_apply, el, er, eb, joined_at]
  rfl

end Rows

/-- The reference's result at batch entry `b`, node `n`, coordinate `h` is the row function of that node's gathered
    rows and weights, its own embedding and the two layers: the dense row divided by its Euclidean length (the sum of
    squares over the 128 coordinates, from the zero word) plus ε. -/
theorem ref_row (x0 : (⟨S2x8192x128, .f32⟩ : BufTy).Contents (Elt Ideal)) (x1 : (⟨S8192x8192, .f32⟩ : BufTy).Contents (Elt Ideal)) (x2 : (⟨S8192x32, .i32⟩ : BufTy).Contents (Elt Ideal)) (x3 : (⟨S128x128, .f32⟩ : BufTy).Contents (Elt Ideal)) (x4 : (⟨S128, .f32⟩ : BufTy).Contents (Elt Ideal)) (x5 : (⟨S256x128, .f32⟩ : BufTy).Contents (Elt Ideal)) (x6 : (⟨S128, .f32⟩ : BufTy).Contents (Elt Ideal)) (b : Fin 2) (n : Fin 8192) (h : Fin 128) :
    val_main_v56 (F := Ideal) x0 x1 x2 x3 x4 x5 x6 (ix3 b n h)
      = Cert.GnnRow.out (fun k c => val_main_v6 (F := Ideal) x0 x2 (ix4 b n k c)) (fun k => val_main_v32 (F := Ideal) x1 x2 (ix2 n k))
          (fun c => x0 (ix3 b n c)) (fun c h' => x3 (ix2 c h')) (fun h' => x4 (ix1 h')) (fun f h' => x5 (ix2 f h')) (fun h' => x6 (ix1 h')) h := by
  have e1 : ∀ k : Fin 128, idx_main_call2_v1 (idx_main_call2_v2 (idx_main_v55 (ix3 b n h))) k = ix3 b n k :=
    fun k => funext fun a => by
      match a with | ⟨0, _⟩ => rfl | ⟨1, _⟩ => rfl | ⟨2, _⟩ => rfl
  simp only [val_main_v56_apply, val_main_v55_apply, val_main_v54_apply, val_main_v53_apply, val_main_cst_11_apply,
    val_main_v52_apply, val_main_call2_v2_apply, val_main_call2_v1_apply, val_main_call2_cst_apply,
    val_main_call2_v0_apply, e1, dense_at, Ideal.ofBits_def, Ideal.ofBits_zero_f32, zero_add]
  rfl

end Cert.RefRow

end
-- ==== Proof.lean ====
/-
  The certificate: a graph layer on the TensorCore against its jnp reference, over the extended reals.

  Both programs compute, for every batch entry b and node n, one row of 128 numbers from the node's own embedding,
  the embeddings of its 32 neighbours and the weights of the 32 edges to them: the neighbours go through a dense
  layer and a leaky rectifier, are averaged with the edge weights (the sum of the weights guarded by ε), joined to
  the node's embedding, sent through a second dense layer and rectifier, and divided by the row's Euclidean length
  plus ε (`GnnRow.out`). The kernel gathers the neighbour rows and edge weights on the host exactly as the reference
  does, then computes 512 nodes per grid point with flattened matrix products and lane reductions; the reference
  computes whole arrays with one contraction and one reduction per stage. Read row by row both are the same sums
  of the same numbers, so no law beyond the sums' literal equality is needed and finiteness of the inputs is not used.

  `KernelRow` reads one grid point's stored block row by row, `KernelBlocks` places the blocks in the arrays,
  `KernelArray` assembles the result array as one function `G`, `KernelHost` identifies the host-side gathers with the
  reference's, `RefRow` reads the reference's result row by row. The three frames are the generated runs; the
  idealization rewrote nothing, so `preserves` is trivial.
-/
import proofs.«115110_j4509715661235_1_alg».proof.Defs
import proofs.«115110_j4509715661235_1_alg».proof.Proof.Gen.Kernel
import proofs.«115110_j4509715661235_1_alg».proof.Proof.Gen.Kernel.Skeleton
import proofs.«115110_j4509715661235_1_alg».proof.Proof.Gen.Kernel.Launch
import proofs.«115110_j4509715661235_1_alg».proof.Proof.Gen.Kernel.Points
import proofs.«115110_j4509715661235_1_alg».proof.Proof.Gen.Kernel.Frame
import proofs.«115110_j4509715661235_1_alg».proof.Proof.Gen.KernelIdeal
import proofs.«115110_j4509715661235_1_alg».proof.Proof.Gen.KernelIdeal.Skeleton
import proofs.«115110_j4509715661235_1_alg».proof.Proof.Gen.KernelIdeal.Launch
import proofs.«115110_j4509715661235_1_alg».proof.Proof.Gen.KernelIdeal.Points
import proofs.«115110_j4509715661235_1_alg».proof.Proof.Gen.KernelIdeal.Frame
import proofs.«115110_j4509715661235_1_alg».proof.Proof.Gen.ReferenceIdeal
import proofs.«115110_j4509715661235_1_alg».proof.Proof.Gen.Pre_finite_inputs
import proofs.«115110_j4509715661235_1_alg».proof.Proof.Gen.ReferenceIdeal.Run
import proofs.«115110_j4509715661235_1_alg».proof.Proof.Gen.ReferenceIdeal.Read
import proofs.«115110_j4509715661235_1_alg».proof.Proof.KernelArray
import proofs.«115110_j4509715661235_1_alg».proof.Proof.KernelHost
import proofs.«115110_j4509715661235_1_alg».proof.Proof.RefRow
import Idealize.ShloMosaic.Adequacy
import Idealize.ShloMosaic.Init

noncomputable section

namespace Cert.Proof

open Idealize.ShloMosaic Idealize.ShloMosaic.TcCoe Idealize.ShloMosaic.ValueIdx Idealize.SL.Sem Cert.Kernel

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The kernel's result array and the reference's result are one function of the arguments: at (b, n, h) both are
    coordinate `h` of the specification's row of node (b, n), over the same gathered rows and weights. -/
theorem result_eq (m : (ℓ : Loc Cert.KernelIdeal.nD Cert.KernelIdeal.τ Cert.KernelIdeal.sig) → Buf (Elt Ideal) ℓ) (c : Dev Cert.KernelIdeal.nD) :
    Cert.KernelArray.Gk m c
      = Cert.ReferenceIdeal.Read.val_main_v56 (F := Ideal)
          (m ((c : Thread Cert.KernelIdeal.nD Cert.KernelIdeal.τ).loc Cert.KernelIdeal.main_arg0))
          (m ((c : Thread Cert.KernelIdeal.nD Cert.KernelIdeal.τ).loc Cert.KernelIdeal.main_arg1))
          (m ((c : Thread Cert.KernelIdeal.nD Cert.KernelIdeal.τ).loc Cert.KernelIdeal.main_arg2))
          (m ((c : Thread Cert.KernelIdeal.nD Cert.KernelIdeal.τ).loc Cert.KernelIdeal.main_arg3))
          (m ((c : Thread Cert.KernelIdeal.nD Cert.KernelIdeal.τ).loc Cert.KernelIdeal.main_arg4))
          (m ((c : Thread Cert.KernelIdeal.nD Cert.KernelIdeal.τ).loc Cert.KernelIdeal.main_arg5))
          (m ((c : Thread Cert.KernelIdeal.nD Cert.KernelIdeal.τ).loc Cert.KernelIdeal.main_arg6)) := by
  funext i
  obtain ⟨b, n, h, rfl⟩ : ∃ (b : Fin 2) (n : Fin 8192) (h : Fin 128), i = ix3 b n h := ⟨i 0, i 1, i 2, eq_ix3 i⟩
  rw [Cert.RefRow.ref_row]
  unfold Cert.KernelArray.Gk
  rw [Cert.KernelArray.G_apply, Cert.KernelHost.V_v7, Cert.KernelHost.V_v24, Cert.KernelHost.V_v0,
    Cert.KernelIdeal.Gen.V_main_arg3, Cert.KernelIdeal.Gen.V_main_arg5]
  have e4 : (fun h' : Fin 128 => (Cert.KernelIdeal.Gen.V m c Cert.KernelIdeal.main_v25 : Cert.KernelIdeal.S1x128.Idx → EReal) (ix2 (0 : Fin 1) h'))
      = fun h' => (m ((c : Thread Cert.KernelIdeal.nD Cert.KernelIdeal.τ).loc Cert.KernelIdeal.main_arg4) : Cert.KernelIdeal.S128.Idx → EReal) (ix1 h') :=
    funext fun h' => Cert.KernelHost.V_v25 m c h'
  have e6 : (fun h' : Fin 128 => (Cert.KernelIdeal.Gen.V m c Cert.KernelIdeal.main_v26 : Cert.KernelIdeal.S1x128.Idx → EReal) (ix2 (0 : Fin 1) h'))
      = fun h' => (m ((c : Thread Cert.KernelIdeal.nD Cert.KernelIdeal.τ).loc Cert.KernelIdeal.main_arg6) : Cert.KernelIdeal.S128.Idx → EReal) (ix1 h') :=
    funext fun h' => Cert.KernelHost.V_v26 m c h'
  rw [e4, e6]

theorem algebraic : Cert.algebraic_KernelIdeal_ReferenceIdeal := by
  intro m ρ m' ρ' _ hagree
  refine ⟨fun c => Cert.KernelArray.Gk m c, Cert.KernelArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v56_eq, (hagree c).1, (hagree c).2.1, (hagree c).2.2.1, (hagree c).2.2.2.1,
    (hagree c).2.2.2.2.1, (hagree c).2.2.2.2.2.1, (hagree c).2.2.2.2.2.2]
  exact (result_eq m c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
